-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x8 .f32) (main_arg5 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x8 .f32 := Host.absf main_arg4
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x128 : Shape := ⟨2, ![10000, 128]⟩
abbrev S10000x16 : Shape := ⟨2, ![10000, 16]⟩
abbrev S3300000x16 : Shape := ⟨2, ![3300000, 16]⟩
abbrev S1x16 : Shape := ⟨2, ![1, 16]⟩
abbrev S100000x8 : Shape := ⟨2, ![100000, 8]⟩
abbrev S10000x8 : Shape := ⟨2, ![10000, 8]⟩
abbrev S3300000x8 : Shape := ⟨2, ![3300000, 8]⟩
abbrev S1x8 : Shape := ⟨2, ![1, 8]⟩
abbrev S10000 : Shape := ⟨1, ![10000]⟩
abbrev S10000x1 : Shape := ⟨2, ![10000, 1]⟩

abbrev nBuf : Space → Nat
  | .hbm => 87
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x8, .f32⟩
  | .hbm, ⟨69, _⟩ => ⟨S3300000x1, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x8, .f32⟩
  | .hbm, ⟨79, _⟩ => ⟨S3300000x8, .f32⟩
  | .hbm, ⟨80, _⟩ => ⟨S3300000x8, .f32⟩
  | .hbm, ⟨81, _⟩ => ⟨S_, .f32⟩
  | .hbm, ⟨82, _⟩ => ⟨S100000x8, .f32⟩
  | .hbm, ⟨83, _⟩ => ⟨S3300000x1, .i32⟩
  | .hbm, ⟨84, _⟩ => ⟨S100000x8, .f32⟩
  | .hbm, ⟨85, _⟩ => ⟨S1x8, .f32⟩
  | .hbm, ⟨86, _⟩ => ⟨S100000x8, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x8, .f32⟩
  | .local _ .vmem, ⟨13, _⟩ => ⟨S10000x8, .f32⟩
  | .local _ .vmem, ⟨14, _⟩ => ⟨S10000x8, .f32⟩
  | .local _ .vmem, ⟨15, _⟩ => ⟨S10000x8, .f32⟩
  | .local _ .vmem, ⟨16, _⟩ => ⟨S10000x8, .f32⟩
  | .local _ .vmem, ⟨17, _⟩ => ⟨S1x8, .f32⟩
  | .local _ .vmem, ⟨18, _⟩ => ⟨S10000x8, .f32⟩
  | .local _ .vmem, ⟨19, _⟩ => ⟨S10000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x8 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x8_S16x8_0_0 : ∀ a, (![0, 0] : Fin 2 → Nat) a + S16x8.size a ≤ S16x8.size a
  h_S16x8 : 0 < S16x8.numel
  inb_S10000x8_S10000x8_0_0 : ∀ a, (![0, 0] : Fin 2 → Nat) a + S10000x8.size a ≤ S10000x8.size a
  h_S10000x8 : 0 < S10000x8.numel
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  shapeCasts_S8_S1x8 : S8.ShapeCasts S1x8
  shapeCasts_S10000x8_S10000x8 : S10000x8.ShapeCasts S10000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  reduces_S10000x8_S10000 : S10000x8.Reduces [1] S10000
  shapeCasts_S10000_S10000x1 : S10000.ShapeCasts S10000x1
  broadcasts_S10000x1_S10000x8 : S10000x1.Broadcasts S10000x8
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x16_S10000x16_1_0_0_1_n_n_wf : DotDims.WF S10000x128 S128x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x8_S10000x8_1_0_0_1_n_n_wf : DotDims.WF S10000x16 S16x8 S10000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x8.size a ≤ S16x8.size a
  hwx2_1 : ∀ i : grid2.Coords, EltTy.bits .f32 = 32 ∨ (Rect.block (s := S16x8) S16x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x8.size a ≤ S100000x8.size a
  hwx2_2 : ∀ i : grid2.Coords, EltTy.bits .f32 = 32 ∨ (Rect.block (s := S100000x8) S10000x8.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x8.size a ≤ S100000x8.size a
  hwx3_0 : ∀ i : grid3.Coords, EltTy.bits .f32 = 32 ∨ (Rect.block (s := S100000x8) S10000x8.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x8.size a ≤ S1x8.size a
  hwx3_1 : ∀ i : grid3.Coords, EltTy.bits .f32 = 32 ∨ (Rect.block (s := S1x8) S1x8.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x8.size a ≤ S100000x8.size a
  hwx3_2 : ∀ i : grid3.Coords, EltTy.bits .f32 = 32 ∨ (Rect.block (s := S100000x8) S10000x8.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x8.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x8.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x8 : Shape := ⟨2, ![100000, 8]⟩
abbrev S3300000x8 : Shape := ⟨2, ![3300000, 8]⟩
abbrev S1x8 : Shape := ⟨2, ![1, 8]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x8, .f32⟩
  | .hbm, ⟨73, _⟩ => ⟨S3300000x1, .f32⟩
  | .hbm, ⟨74, _⟩ => ⟨S_, .i32⟩
  | .hbm, ⟨75, _⟩ => ⟨S3300000, .i32⟩
  | .hbm, ⟨76, _⟩ => ⟨S3300000, .i1⟩
  | .hbm, ⟨77, _⟩ => ⟨S_, .i32⟩
  | .hbm, ⟨78, _⟩ => ⟨S3300000, .i32⟩
  | .hbm, ⟨79, _⟩ => ⟨S3300000, .i32⟩
  | .hbm, ⟨80, _⟩ => ⟨S3300000, .i32⟩
  | .hbm, ⟨81, _⟩ => ⟨S3300000x1, .i32⟩
  | .hbm, ⟨82, _⟩ => ⟨S3300000x8, .f32⟩
  | .hbm, ⟨83, _⟩ => ⟨S3300000x8, .f32⟩
  | .hbm, ⟨84, _⟩ => ⟨S3300000x8, .f32⟩
  | .hbm, ⟨85, _⟩ => ⟨S_, .f32⟩
  | .hbm, ⟨86, _⟩ => ⟨S100000x8, .f32⟩
  | .hbm, ⟨87, _⟩ => ⟨S3300000x1, .i32⟩
  | .hbm, ⟨88, _⟩ => ⟨S100000x8, .f32⟩
  | .hbm, ⟨89, _⟩ => ⟨S1x8, .f32⟩
  | .hbm, ⟨90, _⟩ => ⟨S100000x8, .f32⟩
  | .hbm, ⟨91, _⟩ => ⟨S100000x8, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x8, .f32⟩
  | .hbm, ⟨99, _⟩ => ⟨S100000x8, .f32⟩
  | .hbm, ⟨100, _⟩ => ⟨S100000x8, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x8, .f32⟩
  | .hbm, ⟨106, _⟩ => ⟨S100000x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  h_S_ : 0 < S_.numel
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x8_S100000x8_1_0_0_1_n_n_wf : DotDims.WF S100000x16 S16x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

class Facts : Prop extends Facts₀ where

variable [Facts]
-- ==== Proof.Spec.lean ====
/-
  The function both programs compute, stage by stage, over the reference's literal shapes.

  A two-layer graph convolution on 100000 nodes. From the edge list `e : i32[2, 3200000]` the source and target
  index vectors get one self loop per node appended (`srcOf`, `dstOf`: 3300000 entries each). The degree of a node
  is the number of entries of `dst` equal to it (a scatter-add of ones), `dis = deg^(-1/2)` where `deg > 0` (else 0),
  and the weight of edge `k` is `dis[src k] * dis[dst k]` (`normOf`). One propagation step sends a node table `h` to
  the table whose row `v` is the sum over the edges `k` with `dst k = v` of `norm k * h[src k]` (`agg16`, `agg8`:
  gather, scale, scatter-add; a negative index is first wrapped by +100000 as jnp indexing does). The dense layers
  are `lin1 = x · W1`, `biasRelu = max(a + b1, 0)`, `lin2 = h · W2`, and `biasLsm`, the row-wise log-softmax of
  `a + b2` computed as `z - max z - log (sum (exp (z - max z)))`. `G` is their composition.

  Every stage is spelt with the reference program's own operations, so that the reference's run reads back as `G`
  of its arguments operation by operation; the kernel's four pipelined regions are shown to compute `lin1`,
  `biasRelu`, `lin2` and `biasLsm` of the arrays they are entered with, and its host stretches are the same
  operations as here.
-/
import proofs.«123840_j84799834293080_1_alg».proof.Proof.Gen.ReferenceIdeal
import Idealize.ShloMosaic.PureOps.Ideal

noncomputable section

namespace Cert.Spec

open Cert.ReferenceIdeal Cert.ReferenceIdeal.Gen Idealize.ShloMosaic

variable {F : FTy → Type} [FloatOps F]

/-- The source index of every edge, the self loops `0 … 99999` appended. -/
def srcOf (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The target index of every edge, the self loops appended. -/
def dstOf (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- An index vector as the column of start indices a gather takes: a negative index wrapped by `+ 100000`. -/
def wrapIdx (ix : (⟨S3300000, .i32⟩ : BufTy).Contents (Elt F)) : (⟨S3300000x1, .i32⟩ : BufTy).Contents (Elt F) :=
  broadcastInDim S3300000x1 ![0] bcast_S3300000_S3300000x1_0
    (select (cmpi .slt ix (broadcastInDim S3300000 ![] bcast_S_S3300000 (constantI S_ 32 0#32)))
      (addi ix (broadcastInDim S3300000 ![] bcast_S_S3300000 (constantI S_ 32 100000#32))) ix)

/-- An index vector as the column of scatter indices. -/
def colIdx (ix : (⟨S3300000, .i32⟩ : BufTy).Contents (Elt F)) : (⟨S3300000x1, .i32⟩ : BufTy).Contents (Elt F) :=
  broadcastInDim S3300000x1 ![0] bcast_S3300000_S3300000x1_0 ix

/-- The in-degree of every node, self loop included: ones scatter-added at `dst`. -/
def degOf (dst : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant S_ .f32 0x00000000#32))
    (colIdx dst)
    (broadcastInDim S3300000 ![] bcast_S_S3300000 (constant S_ .f32 0x3F800000#32))

/-- `deg^(-1/2)` where the degree is positive, `0` elsewhere. -/
def disOf (deg : (⟨S100000, .f32⟩ : BufTy).Contents (Elt F)) : (⟨S100000, .f32⟩ : BufTy).Contents (Elt F) :=
  select (cmpf (F := F) .ogt deg (broadcastInDim S100000 ![] bcast_S_S100000 (constant S_ .f32 0x00000000#32)))
    (Host.rsqrt (maximumf deg (broadcastInDim S100000 ![] bcast_S_S100000 (constant S_ .f32 0x3F800000#32))))
    (broadcastInDim S100000 ![] bcast_S_S100000 (id (constant S_ .f32 0x00000000#32)))

/-- The symmetric normalisation of every edge: `dis[src] * dis[dst]`. -/
def normOf (src dst : (⟨S3300000, .i32⟩ : BufTy).Contents (Elt F)) : (⟨S3300000, .f32⟩ : BufTy).Contents (Elt F) :=
  mulf (Host.gather gather_S100000_S3300000x1_S3300000_n_0_n_n_0_1_1 (disOf (degOf dst)) (wrapIdx src))
    (Host.gather gather_S100000_S3300000x1_S3300000_n_0_n_n_0_1_1 (disOf (degOf dst)) (wrapIdx dst))

/-- One propagation step on a 16-column node table: row `v` is the sum over the edges into `v` of `norm · h[src]`. -/
def agg16 (h : (⟨S100000x16, .f32⟩ : BufTy).Contents (Elt F)) (nrm : (⟨S3300000, .f32⟩ : BufTy).Contents (Elt F))
    (src dst : (⟨S3300000, .i32⟩ : BufTy).Contents (Elt F)) : (⟨S100000x16, .f32⟩ : BufTy).Contents (Elt F) :=
  Host.scatterAdd scatter_S100000x16_S3300000x1_S3300000x16_1_0_0_1
    (broadcastInDim S100000x16 ![] bcast_S_S100000x16 (constant S_ .f32 0x00000000#32))
    (colIdx dst)
    (mulf (broadcastInDim S3300000x16 ![0, 1] bcast_S3300000x1_S3300000x16_0_1 (broadcastInDim S3300000x1 ![0] bcast_S3300000_S3300000x1_0 nrm))
      (Host.gather gather_S100000x16_S3300000x1_S3300000x16_1_0_n_n_0_1_116 h (wrapIdx src)))

/-- The same step on an 8-column node table. -/
def agg8 (h : (⟨S100000x8, .f32⟩ : BufTy).Contents (Elt F)) (nrm : (⟨S3300000, .f32⟩ : BufTy).Contents (Elt F))
    (src dst : (⟨S3300000, .i32⟩ : BufTy).Contents (Elt F)) : (⟨S100000x8, .f32⟩ : BufTy).Contents (Elt F) :=
  Host.scatterAdd scatter_S100000x8_S3300000x1_S3300000x8_1_0_0_1
    (broadcastInDim S100000x8 ![] bcast_S_S100000x8 (constant S_ .f32 0x00000000#32))
    (colIdx dst)
    (mulf (broadcastInDim S3300000x8 ![0, 1] bcast_S3300000x1_S3300000x8_0_1 (broadcastInDim S3300000x1 ![0] bcast_S3300000_S3300000x1_0 nrm))
      (Host.gather gather_S100000x8_S3300000x1_S3300000x8_1_0_n_n_0_1_18 h (wrapIdx src)))

/-- The first dense layer: `x · W1`. -/
def lin1 (x : (⟨S100000x128, .f32⟩ : BufTy).Contents (Elt F)) (w : (⟨S128x16, .f32⟩ : BufTy).Contents (Elt F)) :
    (⟨S100000x16, .f32⟩ : BufTy).Contents (Elt F) :=
  Host.dotGeneral dot_S100000x128_S128x16_S100000x16_1_0_0_1_n_n none x w

/-- The second dense layer: `h · W2`. -/
def lin2 (h : (⟨S100000x16, .f32⟩ : BufTy).Contents (Elt F)) (w : (⟨S16x8, .f32⟩ : BufTy).Contents (Elt F)) :
    (⟨S100000x8, .f32⟩ : BufTy).Contents (Elt F) :=
  Host.dotGeneral dot_S100000x16_S16x8_S100000x8_1_0_0_1_n_n none h w

/-- A 16-vector as a one-row table. -/
def row16 (b : (⟨S16, .f32⟩ : BufTy).Contents (Elt F)) : (⟨S1x16, .f32⟩ : BufTy).Contents (Elt F) :=
  broadcastInDim S1x16 ![1] bcast_S16_S1x16_1 b

/-- An 8-vector as a one-row table. -/
def row8 (b : (⟨S8, .f32⟩ : BufTy).Contents (Elt F)) : (⟨S1x8, .f32⟩ : BufTy).Contents (Elt F) :=
  broadcastInDim S1x8 ![1] bcast_S8_S1x8_1 b

/-- `max (a + b, 0)`, the bias row added to every row. -/
def biasRelu (a : (⟨S100000x16, .f32⟩ : BufTy).Contents (Elt F)) (b : (⟨S1x16, .f32⟩ : BufTy).Contents (Elt F)) :
    (⟨S100000x16, .f32⟩ : BufTy).Contents (Elt F) :=
  maximumf (addf a (broadcastInDim S100000x16 ![0, 1] bcast_S1x16_S100000x16_0_1 b))
    (broadcastInDim S100000x16 ![] bcast_S_S100000x16 (constant S_ .f32 0x00000000#32))

/-- The logits: the bias row added to every row. -/
def logits (a : (⟨S100000x8, .f32⟩ : BufTy).Contents (Elt F)) (b : (⟨S1x8, .f32⟩ : BufTy).Contents (Elt F)) :
    (⟨S100000x8, .f32⟩ : BufTy).Contents (Elt F) :=
  addf a (broadcastInDim S100000x8 ![0, 1] bcast_S1x8_S100000x8_0_1 b)

/-- Every row's maximum (from `-∞`, and once more against `-∞`). -/
def rowMax (z : (⟨S100000x8, .f32⟩ : BufTy).Contents (Elt F)) : (⟨S100000, .f32⟩ : BufTy).Contents (Elt F) :=
  maximumf (broadcastInDim S100000 ![] bcast_S_S100000 (constant S_ .f32 0xFF800000#32))
    (Host.reduce FloatOps.maximumf z (constant S_ .f32 0xFF800000#32) reducesTo_S100000x8_S100000_d1 h_S_)

/-- A per-row value spread over the row's 8 columns. -/
def spread (v : (⟨S100000, .f32⟩ : BufTy).Contents (Elt F)) : (⟨S100000x1, .f32⟩ : BufTy).Contents (Elt F) :=
  broadcastInDim S100000x1 ![0] bcast_S100000_S100000x1_0 v

/-- The logits shifted by their row's maximum. -/
def shifted (z : (⟨S100000x8, .f32⟩ : BufTy).Contents (Elt F)) : (⟨S100000x8, .f32⟩ : BufTy).Contents (Elt F) :=
  subf z (broadcastInDim S100000x8 ![0, 1] bcast_S100000x1_S100000x8_0_1 (spread (rowMax z)))

/-- The row-wise log-softmax of shifted logits `s`: `s - log (sum (exp s))`. -/
def lsmOfShifted (s : (⟨S100000x8, .f32⟩ : BufTy).Contents (Elt F)) : (⟨S100000x8, .f32⟩ : BufTy).Contents (Elt F) :=
  subf s (broadcastInDim S100000x8 ![0, 1] bcast_S100000x1_S100000x8_0_1
    (Host.log (spread (Host.reduceAdd (Host.exp s) (constant S_ .f32 0x00000000#32) reducesTo_S100000x8_S100000_d1 h_S_))))

/-- The row-wise log-softmax of `a + b`. -/
def biasLsm (a : (⟨S100000x8, .f32⟩ : BufTy).Contents (Elt F)) (b : (⟨S1x8, .f32⟩ : BufTy).Contents (Elt F)) :
    (⟨S100000x8, .f32⟩ : BufTy).Contents (Elt F) :=
  lsmOfShifted (shifted (logits a b))

/-- The hidden layer: the first convolution followed by bias and ReLU. -/
def hidden (x : (⟨S100000x128, .f32⟩ : BufTy).Contents (Elt F)) (e : (⟨S2x3200000, .i32⟩ : BufTy).Contents (Elt F))
    (w1 : (⟨S128x16, .f32⟩ : BufTy).Contents (Elt F)) (b1 : (⟨S16, .f32⟩ : BufTy).Contents (Elt F)) :
    (⟨S100000x16, .f32⟩ : BufTy).Contents (Elt F) :=
  biasRelu (agg16 (lin1 x w1) (normOf (srcOf e) (dstOf e)) (srcOf e) (dstOf e)) (row16 b1)

/-- The whole network: both programs' result as one function of the six arguments. -/
def G (x : (⟨S100000x128, .f32⟩ : BufTy).Contents (Elt F)) (e : (⟨S2x3200000, .i32⟩ : BufTy).Contents (Elt F))
    (w1 : (⟨S128x16, .f32⟩ : BufTy).Contents (Elt F)) (b1 : (⟨S16, .f32⟩ : BufTy).Contents (Elt F))
    (w2 : (⟨S16x8, .f32⟩ : BufTy).Contents (Elt F)) (b2 : (⟨S8, .f32⟩ : BufTy).Contents (Elt F)) :
    (⟨S100000x8, .f32⟩ : BufTy).Contents (Elt F) :=
  biasLsm (agg8 (lin2 (hidden x e w1 b1) w2) (normOf (srcOf e) (dstOf e)) (srcOf e) (dstOf e)) (row8 b2)

end Cert.Spec

end
-- ==== Proof.KNamed.lean ====
/-
  The kernel program's run with its result buffer named.

  The kernel program is nine segments: three host stretches, the first pipelined region, a host stretch, the second and
  third regions, a host stretch, the fourth region. Its frame certificate follows the buffer contents through the
  segments as a fold from the launch memory, ending at the contents `W9`, and reads every unscoped buffer of a final
  state against `W9`. The same launch over the same segments is read here at one more buffer, the program's result:
  every weakly fair execution terminates without a fault in a state whose result buffer holds `W9` at that buffer,
  the arguments as launched.
-/
import proofs.«123840_j84799834293080_1_alg».proof.Proof.Gen.KernelIdeal.Frame

noncomputable section

namespace Cert.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel program terminates, nothing faulting, with the result buffer at the
    last boundary's contents and the argument arrays as launched. -/
theorem named_run : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.Bridge

end
-- ==== Proof.KStretch.lean ====
/-
  The kernel program's host stretches, read from an arbitrary valuation of its buffers.

  Between its four pipelined regions the kernel program runs the same host operations as the reference: before the
  first region the edge bookkeeping (source and target indices with self loops, degrees, the normalisation of every
  edge), after the first region the propagation step on its 16-column output, after the third region the propagation
  step on its 8-column output. Each stretch is read here once, from a VARIABLE valuation `W` of the buffers, as the
  specification's stage of the buffers it reads; the buffers a stretch does not write are read back unchanged. The
  reshape of a bias vector to a one-row table is the specification's row form.
-/
import proofs.«123840_j84799834293080_1_alg».proof.Proof.Spec
import proofs.«123840_j84799834293080_1_alg».proof.Proof.Gen.KernelIdeal.Launch
import Idealize.ShloMosaic.Lib.StableHlo.Run
import Idealize.ShloMosaic.Lib.Pipeline.Value

noncomputable section

namespace Cert.Bridge

open Idealize.ShloMosaic Idealize.ShloMosaic.TcCoe Idealize.SL.Sem Idealize.ShloMosaic.StableHlo
open Cert.KernelIdeal Cert.KernelIdeal.Gen

variable {F : FTy → Type} [FloatOps F]

/-! ## Before the first region: the edge bookkeeping -/

/-- After the three leading stretches the source indices are the specification's. -/
theorem lead_src (W : Valuation τ sig (Elt F)) :
    StableHlo.after (hostOps0_2 (F := F)) (StableHlo.after (hostOps0_1 (F := F)) (StableHlo.after (hostOps0 (F := F)) W)) (Proc.devRef .tc main_v3) = Cert.Spec.srcOf (F := F) (W (Proc.devRef .tc main_arg1)) := by
  after_results_simp
  rfl

/-- … the target indices likewise. -/
theorem lead_dst (W : Valuation τ sig (Elt F)) :
    StableHlo.after (hostOps0_2 (F := F)) (StableHlo.after (hostOps0_1 (F := F)) (StableHlo.after (hostOps0 (F := F)) W)) (Proc.devRef .tc main_v6) = Cert.Spec.dstOf (F := F) (W (Proc.devRef .tc main_arg1)) := by
  after_results_simp
  rfl

/-- … and the per-edge normalisation `dis[src] * dis[dst]`, with `dis = deg^(-1/2)` where the degree is positive. -/
theorem lead_norm (W : Valuation τ sig (Elt F)) :
    StableHlo.after (hostOps0_2 (F := F)) (StableHlo.after (hostOps0_1 (F := F)) (StableHlo.after (hostOps0 (F := F)) W)) (Proc.devRef .tc main_v31)
      = Cert.Spec.normOf (F := F) (Cert.Spec.srcOf (F := F) (W (Proc.devRef .tc main_arg1))) (Cert.Spec.dstOf (F := F) (W (Proc.devRef .tc main_arg1))) := by
  after_results_simp
  rfl

theorem lead_main_arg0 (W : Valuation τ sig (Elt F)) :
    StableHlo.after (hostOps0_2 (F := F)) (StableHlo.after (hostOps0_1 (F := F)) (StableHlo.after (hostOps0 (F := F)) W)) (Proc.devRef .tc main_arg0) = W (Proc.devRef .tc main_arg0) := by
  after_results_simp

theorem lead_main_arg2 (W : Valuation τ sig (Elt F)) :
    StableHlo.after (hostOps0_2 (F := F)) (StableHlo.after (hostOps0_1 (F := F)) (StableHlo.after (hostOps0 (F := F)) W)) (Proc.devRef .tc main_arg2) = W (Proc.devRef .tc main_arg2) := by
  after_results_simp

theorem lead_main_arg3 (W : Valuation τ sig (Elt F)) :
    StableHlo.after (hostOps0_2 (F := F)) (StableHlo.after (hostOps0_1 (F := F)) (StableHlo.after (hostOps0 (F := F)) W)) (Proc.devRef .tc main_arg3) = W (Proc.devRef .tc main_arg3) := by
  after_results_simp

theorem lead_main_arg4 (W : Valuation τ sig (Elt F)) :
    StableHlo.after (hostOps0_2 (F := F)) (StableHlo.after (hostOps0_1 (F := F)) (StableHlo.after (hostOps0 (F := F)) W)) (Proc.devRef .tc main_arg4) = W (Proc.devRef .tc main_arg4) := by
  after_results_simp

theorem lead_main_arg5 (W : Valuation τ sig (Elt F)) :
    StableHlo.after (hostOps0_2 (F := F)) (StableHlo.after (hostOps0_1 (F := F)) (StableHlo.after (hostOps0 (F := F)) W)) (Proc.devRef .tc main_arg5) = W (Proc.devRef .tc main_arg5) := by
  after_results_simp

/-! ## Between the first and the second region: one propagation step on 16 columns -/

/-- The stretch scatter-adds `norm · h[src]` at `dst`, `h` the first region's output. -/
theorem mid_agg (W : Valuation τ sig (Elt F)) :
    StableHlo.after (hostOps1 (F := F)) W (Proc.devRef .tc main_v45)
      = Cert.Spec.agg16 (F := F) (W (Proc.devRef .tc main_v32)) (W (Proc.devRef .tc main_v31)) (W (Proc.devRef .tc main_v3)) (W (Proc.devRef .tc main_v6)) := by
  after_results_simp
  rfl

/-- The first bias as a one-row table. -/
theorem mid_bias (W : Valuation τ sig (Elt F)) :
    StableHlo.after (hostOps1 (F := F)) W (Proc.devRef .tc main_v46)
      = shapeCast S1x16 (W (Proc.devRef .tc main_arg3)) shapeCasts_S16_S1x16 := by
  after_results_simp
  rfl

theorem mid_main_v31 (W : Valuation τ sig (Elt F)) :
    StableHlo.after (hostOps1 (F := F)) W (Proc.devRef .tc main_v31) = W (Proc.devRef .tc main_v31) := by
  after_results_simp

theorem mid_main_v3 (W : Valuation τ sig (Elt F)) :
    StableHlo.after (hostOps1 (F := F)) W (Proc.devRef .tc main_v3) = W (Proc.devRef .tc main_v3) := by
  after_results_simp

theorem mid_main_v6 (W : Valuation τ sig (Elt F)) :
    StableHlo.after (hostOps1 (F := F)) W (Proc.devRef .tc main_v6) = W (Proc.devRef .tc main_v6) := by
  after_results_simp

theorem mid_main_arg4 (W : Valuation τ sig (Elt F)) :
    StableHlo.after (hostOps1 (F := F)) W (Proc.devRef .tc main_arg4) = W (Proc.devRef .tc main_arg4) := by
  after_results_simp

theorem mid_main_arg5 (W : Valuation τ sig (Elt F)) :
    StableHlo.after (hostOps1 (F := F)) W (Proc.devRef .tc main_arg5) = W (Proc.devRef .tc main_arg5) := by
  after_results_simp

/-! ## Between the third and the fourth region: one propagation step on 8 columns -/

theorem last_agg (W : Valuation τ sig (Elt F)) :
    StableHlo.after (hostOps3 (F := F)) W (Proc.devRef .tc main_v61)
      = Cert.Spec.agg8 (F := F) (W (Proc.devRef .tc main_v48)) (W (Proc.devRef .tc main_v31)) (W (Proc.devRef .tc main_v3)) (W (Proc.devRef .tc main_v6)) := by
  after_results_simp
  rfl

/-- The second bias as a one-row table. -/
theorem last_bias (W : Valuation τ sig (Elt F)) :
    StableHlo.after (hostOps3 (F := F)) W (Proc.devRef .tc main_v62)
      = shapeCast S1x8 (W (Proc.devRef .tc main_arg5)) shapeCasts_S8_S1x8 := by
  after_results_simp
  rfl

/-! ## A bias vector reshaped to one row -/

/-- The reshape [16] → [1, 16] of a vector is the one-row table whose entry (0, q) is the vector's entry q: the
    specification's `broadcast_in_dim` along axis 1. -/
theorem row16_eq (b : (⟨S16, .f32⟩ : BufTy).Contents (Elt F)) :
    shapeCast S1x16 b shapeCasts_S16_S1x16 = Cert.Spec.row16 (F := F) b := by
  funext j
  unfold Cert.Spec.row16
  refine (shapeCast_addUnit_apply ![16] b shapeCasts_S16_S1x16 j).trans ?_
  exact (broadcastInDim_apply (s := Cert.ReferenceIdeal.S16) (t := Cert.ReferenceIdeal.S1x16) ![1] Cert.ReferenceIdeal.Gen.bcast_S16_S1x16_1 b j (fun a => j a.succ)
    (fun a => match a with | ⟨0, _⟩ => rfl)).symm

/-- The reshape [8] → [1, 8] likewise. -/
theorem row8_eq (b : (⟨S8, .f32⟩ : BufTy).Contents (Elt F)) :
    shapeCast S1x8 b shapeCasts_S8_S1x8 = Cert.Spec.row8 (F := F) b := by
  funext j
  unfold Cert.Spec.row8
  refine (shapeCast_addUnit_apply ![8] b shapeCasts_S8_S1x8 j).trans ?_
  exact (broadcastInDim_apply (s := Cert.ReferenceIdeal.S8) (t := Cert.ReferenceIdeal.S1x8) ![1] Cert.ReferenceIdeal.Gen.bcast_S8_S1x8_1 b j (fun a => j a.succ)
    (fun a => match a with | ⟨0, _⟩ => rfl)).symm

end Cert.Bridge

end
-- ==== Proof.KValue.lean ====
/-
  The kernel program's result as the specification of its arguments.

  The buffer contents at the program's segment boundaries (`W3` … `W9` of its frame certificate) are read one
  boundary at a time, each buffer walked back through the segments that do not write it:
    at the first region's entry the index vectors and the edge normalisation are the specification's of the edge list
    and the arguments are as launched; the first region writes `x · W1`; the next stretch propagates it and lays the
    bias as a row; the second region writes `max (· + b1, 0)`, the third multiplies by `W2`; the last stretch
    propagates again; the fourth region writes the row-wise log-softmax of `· + b2`.
  The four regions' values enter as hypotheses (each is proved in its own module, for ANY contents `V` the region is
  entered with), so this module and those build side by side.
-/
import proofs.«123840_j84799834293080_1_alg».proof.Proof.Spec
import proofs.«123840_j84799834293080_1_alg».proof.Proof.KStretch
import proofs.«123840_j84799834293080_1_alg».proof.Proof.Gen.KernelIdeal.Frame

noncomputable section

namespace Cert.Bridge

open Cert.KernelIdeal Cert.KernelIdeal.Gen
open Idealize.ShloMosaic Idealize.ShloMosaic.TcCoe Idealize.SL.Sem Idealize.ShloMosaic.StableHlo
open Idealize.ShloMosaic.Pipeline (Dat)

/-- The contents a region is entered with: every TensorCore buffer of every core. -/
abbrev Entry : Type := (c : Dev nD) → (b : Ref sig .tc) → Buf (Elt Ideal) ((c : Thread nD τ).loc b)

/-- Region 0 leaves `x · W1` in its output array, whatever it is entered with. -/
abbrev Region0Value : Prop := ∀ (V : Entry) (c : Dev nD),
  (dat0 (F := Ideal) V c).arrAt 2 cfg0.N = Cert.Spec.lin1 (F := Ideal) (V c main_arg0) (V c main_arg2)
/-- Region 1 leaves `max (a + b, 0)`. -/
abbrev Region1Value : Prop := ∀ (V : Entry) (c : Dev nD),
  (dat1 (F := Ideal) V c).arrAt 2 cfg1.N = Cert.Spec.biasRelu (F := Ideal) (V c main_v45) (V c main_v46)
/-- Region 2 leaves `h · W2`. -/
abbrev Region2Value : Prop := ∀ (V : Entry) (c : Dev nD),
  (dat2 (F := Ideal) V c).arrAt 2 cfg2.N = Cert.Spec.lin2 (F := Ideal) (V c main_v47) (V c main_arg4)
/-- Region 3 leaves the row-wise log-softmax of `a + b`. -/
abbrev Region3Value : Prop := ∀ (V : Entry) (c : Dev nD),
  (dat3 (F := Ideal) V c).arrAt 2 cfg3.N = Cert.Spec.biasLsm (F := Ideal) (V c main_v61) (V c main_v62)

variable (m : (ℓ : Loc nD τ sig) → Buf (Elt Ideal) ℓ) (ρ : Dev nD → PrngReg) (c : Dev nD)

/-- The edge list as launched, and what the bookkeeping makes of it. -/
abbrev eSrc := Cert.Spec.srcOf (F := Ideal) (m ((c : Thread nD τ).loc main_arg1))
abbrev eDst := Cert.Spec.dstOf (F := Ideal) (m ((c : Thread nD τ).loc main_arg1))
abbrev eNorm := Cert.Spec.normOf (F := Ideal) (eSrc m c) (eDst m c)

/-! ## The first region's entry (`W3`) -/

theorem w3_src : W3 m ρ c (Proc.devRef .tc main_v3) = eSrc m c := lead_src (W0 m ρ c)
theorem w3_dst : W3 m ρ c (Proc.devRef .tc main_v6) = eDst m c := lead_dst (W0 m ρ c)
theorem w3_norm : W3 m ρ c (Proc.devRef .tc main_v31) = eNorm m c := lead_norm (W0 m ρ c)
theorem w3_arg0 : W3 m ρ c (Proc.devRef .tc main_arg0) = (m ((c : Thread nD τ).loc main_arg0)) := lead_main_arg0 (W0 m ρ c)
theorem w3_arg2 : W3 m ρ c (Proc.devRef .tc main_arg2) = (m ((c : Thread nD τ).loc main_arg2)) := lead_main_arg2 (W0 m ρ c)
theorem w3_arg3 : W3 m ρ c (Proc.devRef .tc main_arg3) = (m ((c : Thread nD τ).loc main_arg3)) := lead_main_arg3 (W0 m ρ c)
theorem w3_arg4 : W3 m ρ c (Proc.devRef .tc main_arg4) = (m ((c : Thread nD τ).loc main_arg4)) := lead_main_arg4 (W0 m ρ c)
theorem w3_arg5 : W3 m ρ c (Proc.devRef .tc main_arg5) = (m ((c : Thread nD τ).loc main_arg5)) := lead_main_arg5 (W0 m ρ c)

/-! ## The first region's exit (`W4`): its output is `x · W1`, the rest as entered -/

theorem w4_lin (r0 : Region0Value) : W4 m ρ c (Proc.devRef .tc main_v32) = Cert.Spec.lin1 (F := Ideal) (m ((c : Thread nD τ).loc main_arg0)) (m ((c : Thread nD τ).loc main_arg2)) :=
  (W4_arr m ρ c 2).trans ((r0 (V3 m ρ) c).trans (by rw [show V3 m ρ c main_arg0 = _ from w3_arg0 m ρ c, show V3 m ρ c main_arg2 = _ from w3_arg2 m ρ c]))
theorem w4_src : W4 m ρ c (Proc.devRef .tc main_v3) = eSrc m c := (W4_of_ne m ρ c main_v3 (by decide)).trans (w3_src m ρ c)
theorem w4_dst : W4 m ρ c (Proc.devRef .tc main_v6) = eDst m c := (W4_of_ne m ρ c main_v6 (by decide)).trans (w3_dst m ρ c)
theorem w4_norm : W4 m ρ c (Proc.devRef .tc main_v31) = eNorm m c := (W4_of_ne m ρ c main_v31 (by decide)).trans (w3_norm m ρ c)
theorem w4_arg3 : W4 m ρ c (Proc.devRef .tc main_arg3) = (m ((c : Thread nD τ).loc main_arg3)) := (W4_of_ne m ρ c main_arg3 (by decide)).trans (w3_arg3 m ρ c)
theorem w4_arg4 : W4 m ρ c (Proc.devRef .tc main_arg4) = (m ((c : Thread nD τ).loc main_arg4)) := (W4_of_ne m ρ c main_arg4 (by decide)).trans (w3_arg4 m ρ c)
theorem w4_arg5 : W4 m ρ c (Proc.devRef .tc main_arg5) = (m ((c : Thread nD τ).loc main_arg5)) := (W4_of_ne m ρ c main_arg5 (by decide)).trans (w3_arg5 m ρ c)

/-! ## The second region's entry (`W5`): one propagation step, the first bias as a row -/

/-- The first convolution before its bias. -/
abbrev conv1 := Cert.Spec.agg16 (F := Ideal) (Cert.Spec.lin1 (F := Ideal) (m ((c : Thread nD τ).loc main_arg0)) (m ((c : Thread nD τ).loc main_arg2))) (eNorm m c) (eSrc m c) (eDst m c)

theorem w5_agg (r0 : Region0Value) : W5 m ρ c (Proc.devRef .tc main_v45) = conv1 m c :=
  (mid_agg (W4 m ρ c)).trans (by rw [w4_lin m ρ c r0, w4_norm m ρ c, w4_src m ρ c, w4_dst m ρ c])
theorem w5_bias : W5 m ρ c (Proc.devRef .tc main_v46) = Cert.Spec.row16 (F := Ideal) (m ((c : Thread nD τ).loc main_arg3)) :=
  (mid_bias (W4 m ρ c)).trans (by rw [w4_arg3 m ρ c]; exact row16_eq _)
theorem w5_src : W5 m ρ c (Proc.devRef .tc main_v3) = eSrc m c := (mid_main_v3 (W4 m ρ c)).trans (w4_src m ρ c)
theorem w5_dst : W5 m ρ c (Proc.devRef .tc main_v6) = eDst m c := (mid_main_v6 (W4 m ρ c)).trans (w4_dst m ρ c)
theorem w5_norm : W5 m ρ c (Proc.devRef .tc main_v31) = eNorm m c := (mid_main_v31 (W4 m ρ c)).trans (w4_norm m ρ c)
theorem w5_arg4 : W5 m ρ c (Proc.devRef .tc main_arg4) = (m ((c : Thread nD τ).loc main_arg4)) := (mid_main_arg4 (W4 m ρ c)).trans (w4_arg4 m ρ c)
theorem w5_arg5 : W5 m ρ c (Proc.devRef .tc main_arg5) = (m ((c : Thread nD τ).loc main_arg5)) := (mid_main_arg5 (W4 m ρ c)).trans (w4_arg5 m ρ c)

/-! ## The second region's exit (`W6`): the hidden layer -/

/-- The hidden layer `max (conv1 + b1, 0)`. -/
abbrev hid := Cert.Spec.biasRelu (F := Ideal) (conv1 m c) (Cert.Spec.row16 (F := Ideal) (m ((c : Thread nD τ).loc main_arg3)))

theorem w6_hid (r0 : Region0Value) (r1 : Region1Value) : W6 m ρ c (Proc.devRef .tc main_v47) = hid m c :=
  (W6_arr m ρ c 2).trans ((r1 (V5 m ρ) c).trans (by rw [show V5 m ρ c main_v45 = _ from w5_agg m ρ c r0, show V5 m ρ c main_v46 = _ from w5_bias m ρ c]))
theorem w6_src : W6 m ρ c (Proc.devRef .tc main_v3) = eSrc m c := (W6_of_ne m ρ c main_v3 (by decide)).trans (w5_src m ρ c)
theorem w6_dst : W6 m ρ c (Proc.devRef .tc main_v6) = eDst m c := (W6_of_ne m ρ c main_v6 (by decide)).trans (w5_dst m ρ c)
theorem w6_norm : W6 m ρ c (Proc.devRef .tc main_v31) = eNorm m c := (W6_of_ne m ρ c main_v31 (by decide)).trans (w5_norm m ρ c)
theorem w6_arg4 : W6 m ρ c (Proc.devRef .tc main_arg4) = (m ((c : Thread nD τ).loc main_arg4)) := (W6_of_ne m ρ c main_arg4 (by decide)).trans (w5_arg4 m ρ c)
theorem w6_arg5 : W6 m ρ c (Proc.devRef .tc main_arg5) = (m ((c : Thread nD τ).loc main_arg5)) := (W6_of_ne m ρ c main_arg5 (by decide)).trans (w5_arg5 m ρ c)

/-! ## The third region's exit (`W7`): the hidden layer times `W2` -/

theorem w7_lin (r0 : Region0Value) (r1 : Region1Value) (r2 : Region2Value) :
    W7 m ρ c (Proc.devRef .tc main_v48) = Cert.Spec.lin2 (F := Ideal) (hid m c) (m ((c : Thread nD τ).loc main_arg4)) :=
  (W7_arr m ρ c 2).trans ((r2 (V6 m ρ) c).trans (by rw [show V6 m ρ c main_v47 = _ from w6_hid m ρ c r0 r1, show V6 m ρ c main_arg4 = _ from w6_arg4 m ρ c]))
theorem w7_src : W7 m ρ c (Proc.devRef .tc main_v3) = eSrc m c := (W7_of_ne m ρ c main_v3 (by decide)).trans (w6_src m ρ c)
theorem w7_dst : W7 m ρ c (Proc.devRef .tc main_v6) = eDst m c := (W7_of_ne m ρ c main_v6 (by decide)).trans (w6_dst m ρ c)
theorem w7_norm : W7 m ρ c (Proc.devRef .tc main_v31) = eNorm m c := (W7_of_ne m ρ c main_v31 (by decide)).trans (w6_norm m ρ c)
theorem w7_arg5 : W7 m ρ c (Proc.devRef .tc main_arg5) = (m ((c : Thread nD τ).loc main_arg5)) := (W7_of_ne m ρ c main_arg5 (by decide)).trans (w6_arg5 m ρ c)

/-! ## The fourth region's entry (`W8`) and exit (`W9`) -/

theorem w8_agg (r0 : Region0Value) (r1 : Region1Value) (r2 : Region2Value) :
    W8 m ρ c (Proc.devRef .tc main_v61)
      = Cert.Spec.agg8 (F := Ideal) (Cert.Spec.lin2 (F := Ideal) (hid m c) (m ((c : Thread nD τ).loc main_arg4))) (eNorm m c) (eSrc m c) (eDst m c) :=
  (last_agg (W7 m ρ c)).trans (by rw [w7_lin m ρ c r0 r1 r2, w7_norm m ρ c, w7_src m ρ c, w7_dst m ρ c])
theorem w8_bias : W8 m ρ c (Proc.devRef .tc main_v62) = Cert.Spec.row8 (F := Ideal) (m ((c : Thread nD τ).loc main_arg5)) :=
  (last_bias (W7 m ρ c)).trans (by rw [w7_arg5 m ρ c]; exact row8_eq _)

/-- THE KERNEL'S VALUE: the last boundary's contents at the result buffer are the specification of the arguments. -/
theorem kernel_value (r0 : Region0Value) (r1 : Region1Value) (r2 : Region2Value) (r3 : Region3Value) :
    W9 m ρ c (Proc.devRef .tc main_v63)
      = Cert.Spec.G (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W9_arr m ρ c 2).trans ((r3 (V8 m ρ) c).trans (by
    rw [show V8 m ρ c main_v61 = _ from w8_agg m ρ c r0 r1 r2, show V8 m ρ c main_v62 = _ from w8_bias m ρ c]
    rfl))

end Cert.Bridge

end
-- ==== Proof.Region0.lean ====
/-
  The first matrix product's region computes the first dense layer `x · W1`.

  The region multiplies a [100000, 128] table by a [128, 16] matrix, ten row blocks at a time. At grid point `t` the
  body loads rows `10000 t … 10000 t + 9999` of the table (a [10000, 128] block) and the whole matrix, narrows both to
  bf16 — the identity on the ideal values —, multiplies them into a zero accumulator, and stores the [10000, 16] tile,
  which the pipeline writes back as rows `10000 t …` of the result.

  At the ideal values entry `(p, q)` of the tile is `∑ k, block (p, k) * matrix (k, q)`: a matrix product read at an
  index is the accumulator (zero) plus the sum over the contraction index of the operands' products, and a one-axis
  contraction index is its one coordinate (`region0_dot_sum_reindex`). The host's `dot_general` of the whole table and the
  matrix, which is what the specification's first dense layer is, reads at entry `(r, q)` as `∑ k, table (r, k) * matrix (k, q)`
  by the same re-indexing. With `r = 10000 t + p` the two sums have the same terms, since the block's entry `(p, k)`
  is the table's entry `(10000 t + p, k)` and the matrix's block is the matrix. So every block written back is that
  block of the specification's array (`region0_flushed_eq`), and since row `r` lies in the block of point `r / 10000` and every
  point writes back, the ten blocks cover the result array (`region0_cover`), which therefore ends as the specification's
  array (`region0`).
-/
import proofs.«123840_j84799834293080_1_alg».proof.Proof.Spec
import proofs.«123840_j84799834293080_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.TcCoe Idealize.SL.Sem
open Idealize.ShloMosaic.Pipeline (Dat)
open Idealize.ShloMosaic.ValueIdx
open scoped BigOperators

/-! ## A matrix product read at an entry -/

/-- A matrix product's contraction sum, re-indexed by the one contracted coordinate: for dimension numbers that
    contract the left operand's columns against the right operand's rows (the four coordinate facts), the sum over
    the contraction index of the products of the operands at their operand indices is
    `∑ k, x (p, k) * w (k, q)`. -/
theorem region0_dot_sum_reindex {M K N : Nat} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (k : D.contr.Idx), (D.lhsIdx j k 0).val = (j 0).val)
    (hl1 : ∀ (j : (⟨2, ![M, N]⟩ : Shape).Idx) (k : D.contr.Idx), (D.lhsIdx j k 1).val = (k ⟨0, by omega⟩).val)
    (hr0 : ∀ (j : (⟨2, ![M, N]⟩ : Shape).Idx) (k : D.contr.Idx), (D.rhsIdx j k 0).val = (k ⟨0, by omega⟩).val)
    (hr1 : ∀ (j : (⟨2, ![M, N]⟩ : Shape).Idx) (k : D.contr.Idx), (D.rhsIdx j k 1).val = (j 1).val)
    (x : (⟨2, ![M, K]⟩ : Shape).Idx → EReal) (w : (⟨2, ![K, N]⟩ : Shape).Idx → EReal) (p : Fin M) (q : Fin N) :
    ∑ k : D.contr.Idx, x (D.lhsIdx (ix2 p q) k) * w (D.rhsIdx (ix2 p q) k)
      = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-! The coordinate facts of the body's dimension numbers (a [10000, 128] block by the [128, 16] matrix): the left
    operand is read at row `j 0` and column `k`, the right operand at row `k` and column `j 1`. -/

theorem region0_kdot_l0 (j : Cert.KernelIdeal.S10000x16.Idx) (k : Cert.KernelIdeal.dot_S10000x128_S128x16_S10000x16_1_0_0_1_n_n.contr.Idx) : (Cert.KernelIdeal.dot_S10000x128_S128x16_S10000x16_1_0_0_1_n_n.lhsIdx j k 0).val = (j 0).val := by
  unfold DotDims.lhsIdx
  rw [dif_neg (show ¬(0 : Fin Cert.KernelIdeal.S10000x128.rank) ∈ Cert.KernelIdeal.dot_S10000x128_S128x16_S10000x16_1_0_0_1_n_n.lhsBatch by decide), dif_pos (show (0 : Fin Cert.KernelIdeal.S10000x128.rank) ∈ Cert.KernelIdeal.dot_S10000x128_S128x16_S10000x16_1_0_0_1_n_n.lhsNonContracting by decide)]
  rfl
theorem region0_kdot_l1 (j : Cert.KernelIdeal.S10000x16.Idx) (k : Cert.KernelIdeal.dot_S10000x128_S128x16_S10000x16_1_0_0_1_n_n.contr.Idx) : (Cert.KernelIdeal.dot_S10000x128_S128x16_S10000x16_1_0_0_1_n_n.lhsIdx j k 1).val = (k ⟨0, by decide⟩).val :=
  Cert.KernelIdeal.dot_S10000x128_S128x16_S10000x16_1_0_0_1_n_n.lhsIdx_val_of_single rfl j k
theorem region0_kdot_r0 (j : Cert.KernelIdeal.S10000x16.Idx) (k : Cert.KernelIdeal.dot_S10000x128_S128x16_S10000x16_1_0_0_1_n_n.contr.Idx) : (Cert.KernelIdeal.dot_S10000x128_S128x16_S10000x16_1_0_0_1_n_n.rhsIdx j k 0).val = (k ⟨0, by decide⟩).val :=
  Cert.KernelIdeal.dot_S10000x128_S128x16_S10000x16_1_0_0_1_n_n.rhsIdx_val_of_single rfl j k
theorem region0_kdot_r1 (j : Cert.KernelIdeal.S10000x16.Idx) (k : Cert.KernelIdeal.dot_S10000x128_S128x16_S10000x16_1_0_0_1_n_n.contr.Idx) : (Cert.KernelIdeal.dot_S10000x128_S128x16_S10000x16_1_0_0_1_n_n.rhsIdx j k 1).val = (j 1).val := by
  unfold DotDims.rhsIdx
  rw [dif_neg (show ¬(1 : Fin Cert.KernelIdeal.S128x16.rank) ∈ Cert.KernelIdeal.dot_S10000x128_S128x16_S10000x16_1_0_0_1_n_n.rhsBatch by decide), dif_pos (show (1 : Fin Cert.KernelIdeal.S128x16.rank) ∈ Cert.KernelIdeal.dot_S10000x128_S128x16_S10000x16_1_0_0_1_n_n.rhsNonContracting by decide)]
  rfl

/-! The same facts for the specification's dimension numbers (the whole [100000, 128] table by the matrix). -/

theorem region0_rdot_l0 (j : Cert.ReferenceIdeal.S100000x16.Idx) (k : Cert.ReferenceIdeal.dot_S100000x128_S128x16_S100000x16_1_0_0_1_n_n.contr.Idx) : (Cert.ReferenceIdeal.dot_S100000x128_S128x16_S100000x16_1_0_0_1_n_n.lhsIdx j k 0).val = (j 0).val := by
  unfold DotDims.lhsIdx
  rw [dif_neg (show ¬(0 : Fin Cert.ReferenceIdeal.S100000x128.rank) ∈ Cert.ReferenceIdeal.dot_S100000x128_S128x16_S100000x16_1_0_0_1_n_n.lhsBatch by decide), dif_pos (show (0 : Fin Cert.ReferenceIdeal.S100000x128.rank) ∈ Cert.ReferenceIdeal.dot_S100000x128_S128x16_S100000x16_1_0_0_1_n_n.lhsNonContracting by decide)]
  rfl
theorem region0_rdot_l1 (j : Cert.ReferenceIdeal.S100000x16.Idx) (k : Cert.ReferenceIdeal.dot_S100000x128_S128x16_S100000x16_1_0_0_1_n_n.contr.Idx) : (Cert.ReferenceIdeal.dot_S100000x128_S128x16_S100000x16_1_0_0_1_n_n.lhsIdx j k 1).val = (k ⟨0, by decide⟩).val :=
  Cert.ReferenceIdeal.dot_S100000x128_S128x16_S100000x16_1_0_0_1_n_n.lhsIdx_val_of_single rfl j k
theorem region0_rdot_r0 (j : Cert.ReferenceIdeal.S100000x16.Idx) (k : Cert.ReferenceIdeal.dot_S100000x128_S128x16_S100000x16_1_0_0_1_n_n.contr.Idx) : (Cert.ReferenceIdeal.dot_S100000x128_S128x16_S100000x16_1_0_0_1_n_n.rhsIdx j k 0).val = (k ⟨0, by decide⟩).val :=
  Cert.ReferenceIdeal.dot_S100000x128_S128x16_S100000x16_1_0_0_1_n_n.rhsIdx_val_of_single rfl j k
theorem region0_rdot_r1 (j : Cert.ReferenceIdeal.S100000x16.Idx) (k : Cert.ReferenceIdeal.dot_S100000x128_S128x16_S100000x16_1_0_0_1_n_n.contr.Idx) : (Cert.ReferenceIdeal.dot_S100000x128_S128x16_S100000x16_1_0_0_1_n_n.rhsIdx j k 1).val = (j 1).val := by
  unfold DotDims.rhsIdx
  rw [dif_neg (show ¬(1 : Fin Cert.ReferenceIdeal.S128x16.rank) ∈ Cert.ReferenceIdeal.dot_S100000x128_S128x16_S100000x16_1_0_0_1_n_n.rhsBatch by decide), dif_pos (show (1 : Fin Cert.ReferenceIdeal.S128x16.rank) ∈ Cert.ReferenceIdeal.dot_S100000x128_S128x16_S100000x16_1_0_0_1_n_n.rhsNonContracting by decide)]
  rfl

/-- One entry of the tile the body stores: row `p` of the loaded table block times column `q` of the loaded matrix
    (the narrowing to bf16 is the identity on the ideal values, and the accumulator is zero). -/
theorem region0_pay_apply (x0 : Vec Ideal Cert.KernelIdeal.S10000x128 .f32) (x1 : Vec Ideal Cert.KernelIdeal.S128x16 .f32) (p : Fin 10000) (q : Fin 16) :
    Cert.KernelIdeal.Gen.k0_pay1 (F := Ideal) x0 x1 (ix2 p q) = ∑ k : Fin 128, x0 (ix2 p k) * x1 (ix2 k q) := by
  unfold Cert.KernelIdeal.Gen.k0_pay1
  refine (Ideal.matmul_constant_zero_apply Cert.KernelIdeal.dot_S10000x128_S128x16_S10000x16_1_0_0_1_n_n none _ _ (ix2 p q)).trans ?_
  exact region0_dot_sum_reindex Cert.KernelIdeal.dot_S10000x128_S128x16_S10000x16_1_0_0_1_n_n rfl rfl region0_kdot_l0 region0_kdot_l1 region0_kdot_r0 region0_kdot_r1 x0 x1 p q

/-- One entry of the specification's first dense layer: row `r` of the table times column `q` of the matrix. -/
theorem region0_spec_apply (x : (⟨Cert.ReferenceIdeal.S100000x128, .f32⟩ : BufTy).Contents (Elt Ideal)) (w : (⟨Cert.ReferenceIdeal.S128x16, .f32⟩ : BufTy).Contents (Elt Ideal))
    (r : Fin 100000) (q : Fin 16) :
    Cert.Spec.lin1 (F := Ideal) x w (ix2 r q) = ∑ k : Fin 128, x (ix2 r k) * w (ix2 k q) := by
  unfold Cert.Spec.lin1
  simp only [Host.dotGeneral]
  refine (Ideal.dotGeneral_apply Cert.ReferenceIdeal.dot_S100000x128_S128x16_S100000x16_1_0_0_1_n_n none _ _ _ (ix2 r q)).trans ?_
  exact region0_dot_sum_reindex Cert.ReferenceIdeal.dot_S100000x128_S128x16_S100000x16_1_0_0_1_n_n rfl rfl region0_rdot_l0 region0_rdot_l1 region0_rdot_r0 region0_rdot_r1 x w r q

/-! ## From blocks to the array -/

open Cert.KernelIdeal Cert.KernelIdeal.Gen

/-- The zero offsets of a whole-buffer access, as the constant function. -/
theorem region0_hz : (![0, 0] : Fin 2 → Nat) = fun _ => 0 := funext fun a => by fin_cases a <;> rfl

/-- The region's printed index maps, decided over its ten grid points: at point `t` the table's window and the
    result's window are at block `(t, 0)`, the matrix's window at block `(0, 0)`. -/
theorem region0_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section Blocks
variable (V : (c : Dev nD) → (b : Ref sig .tc) → Buf (Elt Ideal) ((c : Thread nD τ).loc b))

/-- The table's block at point `t` is rows `10000 t … 10000 t + 9999` of the table: entry `(p, k)` of the block is
    entry `(10000 t + p, k)` of the array (a block's coordinate is the block index times the block's size plus the
    coordinate inside the block). -/
theorem region0_iblk_table_apply (c : Dev nD) (t : Fin cfg0.N) (p : Fin 10000) (k : Fin 128) (r : Fin 100000)
    (hr : r.val = 10000 * t.val + p.val) :
    (iblk0 V c 0 t : Vec Ideal S10000x128 .f32) (ix2 p k)
      = (V c main_arg0 : S100000x128.Idx → Elt Ideal .f32) (ix2 r k) := by
  obtain ⟨e0, e1, -⟩ := region0_idx_facts t
  unfold iblk0
  rw [View.read_apply]
  show V c main_arg0 _ = V c main_arg0 _
  refine congrArg (V c main_arg0) ?_
  funext a
  apply Fin.ext
  match a with
  | ⟨0, _⟩ => show win0_0.index t (0 : Fin 2) * 10000 + 1 * p.val = r.val; rw [e0, hr]; omega
  | ⟨1, _⟩ => show win0_0.index t (1 : Fin 2) * 128 + 1 * k.val = k.val; rw [e1]; omega

/-- The matrix's block at every point is the whole matrix. -/
theorem region0_iblk_matrix_apply (c : Dev nD) (t : Fin cfg0.N) (k : Fin 128) (q : Fin 16) :
    (iblk0 V c 1 t : Vec Ideal S128x16 .f32) (ix2 k q)
      = (V c main_arg2 : S128x16.Idx → Elt Ideal .f32) (ix2 k q) := by
  obtain ⟨-, -, e0, e1, -⟩ := region0_idx_facts t
  unfold iblk0
  rw [View.read_apply]
  show V c main_arg2 _ = V c main_arg2 _
  refine congrArg (V c main_arg2) ?_
  funext a
  apply Fin.ext
  match a with
  | ⟨0, _⟩ => show win0_1.index t (0 : Fin 2) * 128 + 1 * k.val = k.val; rw [e0]; omega
  | ⟨1, _⟩ => show win0_1.index t (1 : Fin 2) * 16 + 1 * q.val = q.val; rw [e1]; omega

/-- WHAT POINT `t` WRITES BACK: the tile of the product stored at point `t` is block `t` of the specification's
    first dense layer of the arrays the region is entered with. Entry `(p, q)` of the tile is the sum over `k` of the loaded table
    block at `(p, k)` times the loaded matrix at `(k, q)`; the block is rows `10000 t …` of the table, and entry
    `(10000 t + p, q)` of the specification's array is the same sum. -/
theorem region0_flushed_eq (c : Dev nD) (t : Fin cfg0.N) :
    (dat0 (F := Ideal) V c).flushed 2 t
      = ((cfg0.win 2).blk t).view.read (Elt Ideal) (Cert.Spec.lin1 (F := Ideal) (V c main_arg0) (V c main_arg2)) := by
  show (cfg0.win 2).cut (grid0.coords t) ((dat0 V c).after 2 t) = _
  rw [after0_2]
  unfold out0_2
  rw [View.canon_unit_zero region0_hz]
  simp only [View.ld_unit_zero (S := S10000x128) region0_hz, View.ld_unit_zero (S := S128x16) region0_hz]
  funext j
  obtain ⟨p, q, rfl⟩ : ∃ (p : Fin 10000) (q : Fin 16), j = ix2 p q := ⟨j 0, j 1, eq_ix2 j⟩
  have hN : cfg0.N = 10 := N_0
  have ht : t.val < 10 := hN ▸ t.isLt
  obtain ⟨-, -, -, -, e0, e1⟩ := region0_idx_facts t
  -- the row of the array that row `p` of the tile lands on
  have hrow : 10000 * t.val + p.val < 100000 := by have := p.isLt; omega
  have he : ((cfg0.win 2).blk t).view.emb (ix2 p q)
      = (ix2 (⟨10000 * t.val + p.val, hrow⟩ : Fin 100000) q : S100000x16.Idx) := by
    funext a
    apply Fin.ext
    match a with
    | ⟨0, _⟩ => show win0_2.index t (0 : Fin 2) * 10000 + 1 * p.val = 10000 * t.val + p.val; rw [e0]; omega
    | ⟨1, _⟩ => show win0_2.index t (1 : Fin 2) * 16 + 1 * q.val = q.val; rw [e1]; omega
  show k0_pay1 (F := Ideal) (iblk0 V c 0 t) (iblk0 V c 1 t) (ix2 p q)
    = Cert.Spec.lin1 (F := Ideal) (V c main_arg0) (V c main_arg2) (((cfg0.win 2).blk t).view.emb (ix2 p q))
  rw [he]
  refine (region0_pay_apply (iblk0 V c 0 t) (iblk0 V c 1 t) p q).trans ?_
  refine Eq.trans ?_ (region0_spec_apply (V c main_arg0) (V c main_arg2) ⟨10000 * t.val + p.val, hrow⟩ q).symm
  refine Finset.sum_congr rfl fun k _ => ?_
  rw [region0_iblk_table_apply V c t p k ⟨10000 * t.val + p.val, hrow⟩ rfl, region0_iblk_matrix_apply V c t k q]

end Blocks

/-- An entry of the result array is in point `t`'s block iff each coordinate is in the block's range on its axis:
    rows `10000 t … 10000 t + 9999`, all 16 columns. -/
theorem region0_mem_blk (t : Fin cfg0.N) (i : S100000x16.Idx) :
    i ∈ ((cfg0.win 2).blk t).view.set ↔ ∀ a : Fin 2, win0_2.index t a * S10000x16.size a ≤ (i a).val
      ∧ (i a).val < win0_2.index t a * S10000x16.size a + S10000x16.size a := by
  show i ∈ ((View.whole main_v32).slice (win0_2.rect t)).set ↔ _
  rw [View.set_slice_whole, Rect.mem_set_unit]
  exact Iff.rfl

/-- The ten row blocks tile the result: row `r` is in the block of point `r / 10000`, and every point writes back. -/
theorem region0_cover (i : S100000x16.Idx) :
    ∃ t : Fin cfg0.N, (cfg0.win 2).flush t = true ∧ i ∈ ((cfg0.win 2).blk t).view.set := by
  have hN : cfg0.N = 10 := N_0
  have hi0 : (i 0).val < 100000 := (i 0).isLt
  have hi1 : (i 1).val < 16 := (i 1).isLt
  obtain ⟨T, hT⟩ : ∃ T : Fin cfg0.N, T.val = (i 0).val / 10000 := ⟨⟨(i 0).val / 10000, by rw [hN]; omega⟩, rfl⟩
  refine ⟨T, flush0_2 T, ?_⟩
  rw [region0_mem_blk]
  obtain ⟨-, -, -, -, e0, e1⟩ := region0_idx_facts T
  intro a
  match a with
  | ⟨0, _⟩ =>
    show win0_2.index T (0 : Fin 2) * 10000 ≤ (i 0).val ∧ (i 0).val < win0_2.index T (0 : Fin 2) * 10000 + 10000
    rw [e0, hT]; omega
  | ⟨1, _⟩ =>
    show win0_2.index T (1 : Fin 2) * 16 ≤ (i 1).val ∧ (i 1).val < win0_2.index T (1 : Fin 2) * 16 + 16
    rw [e1]; omega

/-- THE FIRST PRODUCT'S REGION: entered with any contents `V`, the region leaves in its result array the specification's
    first dense layer of the table and the matrix it finds — every block written back is that block of the product, and the
    ten blocks tile the array. -/
theorem region0 (V : (c : Dev Cert.KernelIdeal.nD) → (b : Ref Cert.KernelIdeal.sig .tc) → Buf (Elt Ideal) ((c : Thread Cert.KernelIdeal.nD Cert.KernelIdeal.τ).loc b)) (c : Dev Cert.KernelIdeal.nD) :
    (Cert.KernelIdeal.Gen.dat0 (F := Ideal) V c).arrAt 2 Cert.KernelIdeal.cfg0.N
      = Cert.Spec.lin1 (F := Ideal) (V c Cert.KernelIdeal.main_arg0) (V c Cert.KernelIdeal.main_arg2) :=
  (Cert.KernelIdeal.Gen.dat0 (F := Ideal) V c).arrAt_eq_of_cover 2 _ (fun t _ => region0_flushed_eq V c t) region0_cover

end Cert.Bridge

end
-- ==== Proof.Region1.lean ====
/-
  The second pipelined region: bias and rectification of a node table.

  The region is entered with a table `a : f32[100000, 16]` and a one-row table `b : f32[1, 16]` and leaves the table
  whose entry `(r, q)` is `max (a (r, q) + b (0, q)) 0`. Its grid has ten points. Point `t` loads the rows
  `10000 t … 10000 t + 9999` of `a` (a block of shape [10000, 16] at block index `(t, 0)`) and the whole of `b` (its
  only block, at block index `(0, 0)`), adds to every row of the block the row of `b`, takes the maximum with the
  real that the zero word encodes, and writes the result back as the same rows of the output. Entry `(p, q)` of the
  block that point `t` writes therefore depends on `a (10000 t + p, q)` and `b (0, q)` only, and it is the entry
  `(10000 t + p, q)` of `Spec.biasRelu a b`: on both sides it is `max (a (10000 t + p, q) + b (0, q)) z`, with `z` the
  extended real of the word `0x00000000`. No algebraic law joins the two sides; they differ in layout operations only
  (on the one side two casts of a shape to itself, the row broadcast [1, 16] → [10000, 16] and the splat of a scalar; on
  the other the broadcast along both axes [1, 16] → [100000, 16] and that of a rank-0 constant), each of which reads one
  entry of its operand. The ten blocks tile the 100000 rows (row `r` lies in the block of point `r / 10000`), every
  point writes its block back, and so the output array ends as `Spec.biasRelu a b`.
-/
import proofs.«123840_j84799834293080_1_alg».proof.Proof.Spec
import proofs.«123840_j84799834293080_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.TcCoe Idealize.SL.Sem
open Idealize.ShloMosaic.Pipeline (Dat)
open Idealize.ShloMosaic.ValueIdx
open Cert.KernelIdeal

/-! ## The block indices, and the two sides at an index -/

/-- The offsets of a load or store of a whole block are zero on both axes. -/
theorem region1_zero : (![0, 0] : Fin 2 → Nat) = fun _ => 0 := funext fun a => by fin_cases a <;> rfl

/-- The block indices over the ten grid points: the table's block and the output's block are at `(t, 0)`, the
    bias row's block stays at `(0, 0)`. -/
theorem region1_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What a point stores, at `(p, q)` of its block: the block's entry plus the bias row's entry in column `q`,
    rectified. The two casts of a shape to itself are identities, the row broadcast reads row `0` of its operand,
    the splat reads its scalar. -/
theorem region1_tile_apply (x0 : Vec Ideal S10000x16 .f32) (x1 : Vec Ideal S1x16 .f32) (p : Fin 10000) (q : Fin 16) :
    Gen.k1_pay1 (F := Ideal) x0 x1 (ix2 p q)
      = max (x0 (ix2 p q) + x1 (ix2 (0 : Fin 1) q)) (Ideal.ofBits .f32 0x00000000#32) := by
  unfold Gen.k1_pay1
  show max (shapeCast S10000x16 x0 _ (ix2 p q)
      + broadcastTo S10000x16 (shapeCast S1x16 x1 _) _ (ix2 p q))
      (Ideal.ofBits .f32 0x00000000#32) = _
  rw [shapeCast_self, shapeCast_self, broadcastTo_1b_ab_apply]

/-- The specification at `(r, q)`: the same expression of `a (r, q)` and `b (0, q)`. The broadcast of the one-row
    table along both axes reads coordinate `0` on its unit axis and `q` on the other; the broadcast of the rank-0
    constant reads its only entry. -/
theorem region1_spec_apply (a : (⟨Cert.ReferenceIdeal.S100000x16, .f32⟩ : BufTy).Contents (Elt Ideal))
    (b : (⟨Cert.ReferenceIdeal.S1x16, .f32⟩ : BufTy).Contents (Elt Ideal)) (r : Fin 100000) (q : Fin 16) :
    Cert.Spec.biasRelu (F := Ideal) a b (ix2 r q)
      = max (a (ix2 r q) + b (ix2 (0 : Fin 1) q)) (Ideal.ofBits .f32 0x00000000#32) := by
  unfold Cert.Spec.biasRelu
  show max (a (ix2 r q) + broadcastInDim _ ![0, 1] _ b (ix2 r q))
      (broadcastInDim _ ![] _ (constant (F := Ideal) Cert.ReferenceIdeal.S_ .f32 0x00000000#32) (ix2 r q)) = _
  rw [broadcastInDim_apply ![0, 1] _ b (ix2 r q) (ix2 (0 : Fin 1) q) (fun ax => by
        match ax with
        | ⟨0, _⟩ => rfl
        | ⟨1, _⟩ => rfl),
    broadcastInDim_apply ![] _ _ (ix2 r q) ix0 (fun ax => ax.elim0)]
  rfl

/-! ## Where a block's entries sit in their arrays

A block's entry sits, on each axis, at the block index times the block's extent plus the entry's own coordinate. -/

/-- Entry `(p, q)` of the table's block at point `t` is the table's entry `(10000 t + p, q)`. -/
theorem region1_emb_rows (t : Fin cfg1.N) (p : Fin 10000) (q : Fin 16) (h : 10000 * t.val + p.val < 100000) :
    ((cfg1.win 0).blk t).view.emb (ix2 p q) = ix2 (⟨10000 * t.val + p.val, h⟩ : Fin 100000) q := by
  obtain ⟨e0, e1, -, -, -, -⟩ := region1_index t
  funext a; apply Fin.ext
  match a with
  | ⟨0, _⟩ => show win1_0.index t (0 : Fin 2) * 10000 + 1 * p.val = 10000 * t.val + p.val; rw [e0]; omega
  | ⟨1, _⟩ => show win1_0.index t (1 : Fin 2) * 16 + 1 * q.val = q.val; rw [e1]; omega

/-- Entry `(0, q)` of the bias row's block is the row's entry `(0, q)`, at every point. -/
theorem region1_emb_bias (t : Fin cfg1.N) (q : Fin 16) :
    ((cfg1.win 1).blk t).view.emb (ix2 (0 : Fin 1) q) = ix2 (0 : Fin 1) q := by
  obtain ⟨-, -, e0, e1, -, -⟩ := region1_index t
  funext a; apply Fin.ext
  match a with
  | ⟨0, _⟩ => show win1_1.index t (0 : Fin 2) * 1 + 1 * 0 = 0; rw [e0]
  | ⟨1, _⟩ => show win1_1.index t (1 : Fin 2) * 16 + 1 * q.val = q.val; rw [e1]; omega

/-- Entry `(p, q)` of the output's block at point `t` is the output's entry `(10000 t + p, q)`. -/
theorem region1_emb_out (t : Fin cfg1.N) (p : Fin 10000) (q : Fin 16) (h : 10000 * t.val + p.val < 100000) :
    ((cfg1.win 2).blk t).view.emb (ix2 p q) = ix2 (⟨10000 * t.val + p.val, h⟩ : Fin 100000) q := by
  obtain ⟨-, -, -, -, e0, e1⟩ := region1_index t
  funext a; apply Fin.ext
  match a with
  | ⟨0, _⟩ => show win1_2.index t (0 : Fin 2) * 10000 + 1 * p.val = 10000 * t.val + p.val; rw [e0]; omega
  | ⟨1, _⟩ => show win1_2.index t (1 : Fin 2) * 16 + 1 * q.val = q.val; rw [e1]; omega

/-! ## From the blocks to the array -/

variable (V : (c : Dev nD) → (b : Ref sig .tc) → Buf (Elt Ideal) ((c : Thread nD τ).loc b))

/-- The table's block at point `t`, read at `(p, q)`: row `10000 t + p` of the table the region is entered with. -/
theorem region1_rows_apply (c : Dev nD) (t : Fin cfg1.N) (p : Fin 10000) (q : Fin 16) (h : 10000 * t.val + p.val < 100000) :
    (Gen.iblk1 (F := Ideal) V c 0 t : Vec Ideal S10000x16 .f32) (ix2 p q)
      = V c main_v45 (ix2 (⟨10000 * t.val + p.val, h⟩ : Fin 100000) q) := by
  unfold Gen.iblk1
  show V c main_v45 (((cfg1.win 0).blk t).view.emb (ix2 p q)) = _
  rw [region1_emb_rows t p q h]

/-- The bias row's block at any point, read at `(0, q)`: the bias row the region is entered with. -/
theorem region1_bias_apply (c : Dev nD) (t : Fin cfg1.N) (q : Fin 16) :
    (Gen.iblk1 (F := Ideal) V c 1 t : Vec Ideal S1x16 .f32) (ix2 (0 : Fin 1) q) = V c main_v46 (ix2 (0 : Fin 1) q) := by
  unfold Gen.iblk1
  show V c main_v46 (((cfg1.win 1).blk t).view.emb (ix2 (0 : Fin 1) q)) = _
  rw [region1_emb_bias t q]

/-- What point `t` writes back is its block of `Spec.biasRelu a b`: the one store through the whole staging buffer
    leaves the stored value, whose entry `(p, q)` and the specification's entry `(10000 t + p, q)` are the same
    expression of `a (10000 t + p, q)` and `b (0, q)`. -/
theorem region1_writeback (c : Dev nD) (t : Fin cfg1.N) :
    (Gen.dat1 (F := Ideal) V c).flushed 2 t
      = ((cfg1.win 2).blk t).view.read (Elt Ideal) (Cert.Spec.biasRelu (F := Ideal) (V c main_v45) (V c main_v46)) := by
  show (cfg1.win 2).cut (grid1.coords t) ((Gen.dat1 (F := Ideal) V c).after 2 t) = _
  rw [Gen.after1_2]
  unfold Gen.out1_2
  rw [View.canon_unit_zero region1_zero]
  simp only [View.ld_unit_zero (S := S10000x16) region1_zero, View.ld_unit_zero (S := S1x16) region1_zero]
  funext j
  obtain ⟨p, q, rfl⟩ : ∃ (p : Fin 10000) (q : Fin 16), j = ix2 p q := ⟨j 0, j 1, eq_ix2 j⟩
  have hN : cfg1.N = 10 := Gen.N_1
  have ht : t.val < 10 := by have := t.isLt; omega
  have hp : p.val < 10000 := p.isLt
  have h : 10000 * t.val + p.val < 100000 := by omega
  show Gen.k1_pay1 (F := Ideal) (Gen.iblk1 V c 0 t) (Gen.iblk1 V c 1 t) (ix2 p q)
    = Cert.Spec.biasRelu (F := Ideal) (V c main_v45) (V c main_v46) (((cfg1.win 2).blk t).view.emb (ix2 p q))
  rw [region1_emb_out t p q h]
  refine (region1_tile_apply _ _ p q).trans (Eq.trans ?_ (region1_spec_apply _ _ ⟨_, h⟩ q).symm)
  rw [region1_rows_apply V c t p q h, region1_bias_apply V c t q]

/-- An entry of the output lies in point `t`'s block iff each coordinate lies in the block's range on its axis. -/
theorem region1_mem_block (t : Fin cfg1.N) (i : S100000x16.Idx) :
    i ∈ ((cfg1.win 2).blk t).view.set ↔ ∀ a : Fin 2, win1_2.index t a * S10000x16.size a ≤ (i a).val
      ∧ (i a).val < win1_2.index t a * S10000x16.size a + S10000x16.size a := by
  show i ∈ ((View.whole main_v47).slice (win1_2.rect t)).set ↔ _
  rw [View.set_slice_whole, Rect.mem_set_unit]
  exact Iff.rfl

/-- The ten blocks tile the output: row `r` lies in the block of point `r / 10000`, which writes it back. -/
theorem region1_cover (i : S100000x16.Idx) :
    ∃ t : Fin cfg1.N, (cfg1.win 2).flush t = true ∧ i ∈ ((cfg1.win 2).blk t).view.set := by
  have hN : cfg1.N = 10 := Gen.N_1
  have hi0 : (i 0).val < 100000 := (i 0).isLt
  have hi1 : (i 1).val < 16 := (i 1).isLt
  obtain ⟨t, ht⟩ : ∃ t : Fin cfg1.N, t.val = (i 0).val / 10000 := ⟨⟨(i 0).val / 10000, by rw [hN]; omega⟩, rfl⟩
  obtain ⟨-, -, -, -, e0, e1⟩ := region1_index t
  refine ⟨t, Gen.flush1_2 t, ?_⟩
  rw [region1_mem_block]
  intro a
  match a with
  | ⟨0, _⟩ =>
    show win1_2.index t (0 : Fin 2) * 10000 ≤ (i 0).val ∧ (i 0).val < win1_2.index t (0 : Fin 2) * 10000 + 10000
    rw [e0, ht]; omega
  | ⟨1, _⟩ =>
    show win1_2.index t (1 : Fin 2) * 16 ≤ (i 1).val ∧ (i 1).val < win1_2.index t (1 : Fin 2) * 16 + 16
    rw [e1]; omega

/-- The region's output array after its ten points: `max (a + b, 0)` of the table `a` and the bias row `b` it is
    entered with, the bias row added to every row. -/
theorem region1 (c : Dev nD) :
    (Gen.dat1 (F := Ideal) V c).arrAt 2 cfg1.N
      = Cert.Spec.biasRelu (F := Ideal) (V c main_v45) (V c main_v46) :=
  (Gen.dat1 (F := Ideal) V c).arrAt_eq_of_cover 2 _ (fun t _ => region1_writeback V c t) region1_cover

end Cert.Bridge

end
-- ==== Proof.Region2.lean ====
/-
  The second matrix product's region computes the second dense layer `h · W2`.

  The region multiplies a [100000, 16] table by a [16, 8] matrix, ten row blocks at a time. At grid point `t` the
  body loads rows `10000 t … 10000 t + 9999` of the table (a [10000, 16] block, first cast to its own shape, which
  changes nothing) and the whole matrix, narrows both to bf16 — the identity on the ideal values —, multiplies them
  into a zero accumulator, and stores the [10000, 8] tile, which the pipeline writes back as rows `10000 t …` of the
  result.

  At the ideal values entry `(p, q)` of the tile is `∑ k, block (p, k) * matrix (k, q)`: a matrix product read at an
  index is the accumulator (zero) plus the sum over the contraction index of the operands' products, and a one-axis
  contraction index is its one coordinate (`region2_dot_sum_reindex`). The host's `dot_general` of the whole table and the
  matrix, which is what the specification's second dense layer is, reads at entry `(r, q)` as `∑ k, table (r, k) * matrix (k, q)`
  by the same re-indexing. With `r = 10000 t + p` the two sums have the same terms, since the block's entry `(p, k)`
  is the table's entry `(10000 t + p, k)` and the matrix's block is the matrix. So every block written back is that
  block of the specification's array (`region2_flushed_eq`), and since row `r` lies in the block of point `r / 10000` and every
  point writes back, the ten blocks cover the result array (`region2_cover`), which therefore ends as the specification's
  array (`region2`).
-/
import proofs.«123840_j84799834293080_1_alg».proof.Proof.Spec
import proofs.«123840_j84799834293080_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.TcCoe Idealize.SL.Sem
open Idealize.ShloMosaic.Pipeline (Dat)
open Idealize.ShloMosaic.ValueIdx
open scoped BigOperators

/-! ## A matrix product read at an entry -/

/-- A matrix product's contraction sum, re-indexed by the one contracted coordinate: for dimension numbers that
    contract the left operand's columns against the right operand's rows (the four coordinate facts), the sum over
    the contraction index of the products of the operands at their operand indices is
    `∑ k, x (p, k) * w (k, q)`. -/
theorem region2_dot_sum_reindex {M K N : Nat} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (k : D.contr.Idx), (D.lhsIdx j k 0).val = (j 0).val)
    (hl1 : ∀ (j : (⟨2, ![M, N]⟩ : Shape).Idx) (k : D.contr.Idx), (D.lhsIdx j k 1).val = (k ⟨0, by omega⟩).val)
    (hr0 : ∀ (j : (⟨2, ![M, N]⟩ : Shape).Idx) (k : D.contr.Idx), (D.rhsIdx j k 0).val = (k ⟨0, by omega⟩).val)
    (hr1 : ∀ (j : (⟨2, ![M, N]⟩ : Shape).Idx) (k : D.contr.Idx), (D.rhsIdx j k 1).val = (j 1).val)
    (x : (⟨2, ![M, K]⟩ : Shape).Idx → EReal) (w : (⟨2, ![K, N]⟩ : Shape).Idx → EReal) (p : Fin M) (q : Fin N) :
    ∑ k : D.contr.Idx, x (D.lhsIdx (ix2 p q) k) * w (D.rhsIdx (ix2 p q) k)
      = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-! The coordinate facts of the body's dimension numbers (a [10000, 16] block by the [16, 8] matrix): the left
    operand is read at row `j 0` and column `k`, the right operand at row `k` and column `j 1`. -/

theorem region2_kdot_l0 (j : Cert.KernelIdeal.S10000x8.Idx) (k : Cert.KernelIdeal.dot_S10000x16_S16x8_S10000x8_1_0_0_1_n_n.contr.Idx) : (Cert.KernelIdeal.dot_S10000x16_S16x8_S10000x8_1_0_0_1_n_n.lhsIdx j k 0).val = (j 0).val := by
  unfold DotDims.lhsIdx
  rw [dif_neg (show ¬(0 : Fin Cert.KernelIdeal.S10000x16.rank) ∈ Cert.KernelIdeal.dot_S10000x16_S16x8_S10000x8_1_0_0_1_n_n.lhsBatch by decide), dif_pos (show (0 : Fin Cert.KernelIdeal.S10000x16.rank) ∈ Cert.KernelIdeal.dot_S10000x16_S16x8_S10000x8_1_0_0_1_n_n.lhsNonContracting by decide)]
  rfl
theorem region2_kdot_l1 (j : Cert.KernelIdeal.S10000x8.Idx) (k : Cert.KernelIdeal.dot_S10000x16_S16x8_S10000x8_1_0_0_1_n_n.contr.Idx) : (Cert.KernelIdeal.dot_S10000x16_S16x8_S10000x8_1_0_0_1_n_n.lhsIdx j k 1).val = (k ⟨0, by decide⟩).val :=
  Cert.KernelIdeal.dot_S10000x16_S16x8_S10000x8_1_0_0_1_n_n.lhsIdx_val_of_single rfl j k
theorem region2_kdot_r0 (j : Cert.KernelIdeal.S10000x8.Idx) (k : Cert.KernelIdeal.dot_S10000x16_S16x8_S10000x8_1_0_0_1_n_n.contr.Idx) : (Cert.KernelIdeal.dot_S10000x16_S16x8_S10000x8_1_0_0_1_n_n.rhsIdx j k 0).val = (k ⟨0, by decide⟩).val :=
  Cert.KernelIdeal.dot_S10000x16_S16x8_S10000x8_1_0_0_1_n_n.rhsIdx_val_of_single rfl j k
theorem region2_kdot_r1 (j : Cert.KernelIdeal.S10000x8.Idx) (k : Cert.KernelIdeal.dot_S10000x16_S16x8_S10000x8_1_0_0_1_n_n.contr.Idx) : (Cert.KernelIdeal.dot_S10000x16_S16x8_S10000x8_1_0_0_1_n_n.rhsIdx j k 1).val = (j 1).val := by
  unfold DotDims.rhsIdx
  rw [dif_neg (show ¬(1 : Fin Cert.KernelIdeal.S16x8.rank) ∈ Cert.KernelIdeal.dot_S10000x16_S16x8_S10000x8_1_0_0_1_n_n.rhsBatch by decide), dif_pos (show (1 : Fin Cert.KernelIdeal.S16x8.rank) ∈ Cert.KernelIdeal.dot_S10000x16_S16x8_S10000x8_1_0_0_1_n_n.rhsNonContracting by decide)]
  rfl

/-! The same facts for the specification's dimension numbers (the whole [100000, 16] table by the matrix). -/

theorem region2_rdot_l0 (j : Cert.ReferenceIdeal.S100000x8.Idx) (k : Cert.ReferenceIdeal.dot_S100000x16_S16x8_S100000x8_1_0_0_1_n_n.contr.Idx) : (Cert.ReferenceIdeal.dot_S100000x16_S16x8_S100000x8_1_0_0_1_n_n.lhsIdx j k 0).val = (j 0).val := by
  unfold DotDims.lhsIdx
  rw [dif_neg (show ¬(0 : Fin Cert.ReferenceIdeal.S100000x16.rank) ∈ Cert.ReferenceIdeal.dot_S100000x16_S16x8_S100000x8_1_0_0_1_n_n.lhsBatch by decide), dif_pos (show (0 : Fin Cert.ReferenceIdeal.S100000x16.rank) ∈ Cert.ReferenceIdeal.dot_S100000x16_S16x8_S100000x8_1_0_0_1_n_n.lhsNonContracting by decide)]
  rfl
theorem region2_rdot_l1 (j : Cert.ReferenceIdeal.S100000x8.Idx) (k : Cert.ReferenceIdeal.dot_S100000x16_S16x8_S100000x8_1_0_0_1_n_n.contr.Idx) : (Cert.ReferenceIdeal.dot_S100000x16_S16x8_S100000x8_1_0_0_1_n_n.lhsIdx j k 1).val = (k ⟨0, by decide⟩).val :=
  Cert.ReferenceIdeal.dot_S100000x16_S16x8_S100000x8_1_0_0_1_n_n.lhsIdx_val_of_single rfl j k
theorem region2_rdot_r0 (j : Cert.ReferenceIdeal.S100000x8.Idx) (k : Cert.ReferenceIdeal.dot_S100000x16_S16x8_S100000x8_1_0_0_1_n_n.contr.Idx) : (Cert.ReferenceIdeal.dot_S100000x16_S16x8_S100000x8_1_0_0_1_n_n.rhsIdx j k 0).val = (k ⟨0, by decide⟩).val :=
  Cert.ReferenceIdeal.dot_S100000x16_S16x8_S100000x8_1_0_0_1_n_n.rhsIdx_val_of_single rfl j k
theorem region2_rdot_r1 (j : Cert.ReferenceIdeal.S100000x8.Idx) (k : Cert.ReferenceIdeal.dot_S100000x16_S16x8_S100000x8_1_0_0_1_n_n.contr.Idx) : (Cert.ReferenceIdeal.dot_S100000x16_S16x8_S100000x8_1_0_0_1_n_n.rhsIdx j k 1).val = (j 1).val := by
  unfold DotDims.rhsIdx
  rw [dif_neg (show ¬(1 : Fin Cert.ReferenceIdeal.S16x8.rank) ∈ Cert.ReferenceIdeal.dot_S100000x16_S16x8_S100000x8_1_0_0_1_n_n.rhsBatch by decide), dif_pos (show (1 : Fin Cert.ReferenceIdeal.S16x8.rank) ∈ Cert.ReferenceIdeal.dot_S100000x16_S16x8_S100000x8_1_0_0_1_n_n.rhsNonContracting by decide)]
  rfl

/-- One entry of the tile the body stores: row `p` of the loaded table block times column `q` of the loaded matrix
    (the cast of the block to its own shape and the narrowing to bf16 are the identity on the ideal values, and the
    accumulator is zero). -/
theorem region2_pay_apply (x0 : Vec Ideal Cert.KernelIdeal.S10000x16 .f32) (x1 : Vec Ideal Cert.KernelIdeal.S16x8 .f32) (p : Fin 10000) (q : Fin 8) :
    Cert.KernelIdeal.Gen.k2_pay1 (F := Ideal) x0 x1 (ix2 p q) = ∑ k : Fin 16, x0 (ix2 p k) * x1 (ix2 k q) := by
  unfold Cert.KernelIdeal.Gen.k2_pay1
  refine (Ideal.matmul_constant_zero_apply Cert.KernelIdeal.dot_S10000x16_S16x8_S10000x8_1_0_0_1_n_n none _ _ (ix2 p q)).trans ?_
  refine (region2_dot_sum_reindex Cert.KernelIdeal.dot_S10000x16_S16x8_S10000x8_1_0_0_1_n_n rfl rfl region2_kdot_l0 region2_kdot_l1 region2_kdot_r0 region2_kdot_r1
    (shapeCast Cert.KernelIdeal.S10000x16 x0 Cert.KernelIdeal.Facts₀.shapeCasts_S10000x16_S10000x16) x1 p q).trans ?_
  rw [shapeCast_self]

/-- One entry of the specification's second dense layer: row `r` of the table times column `q` of the matrix. -/
theorem region2_spec_apply (x : (⟨Cert.ReferenceIdeal.S100000x16, .f32⟩ : BufTy).Contents (Elt Ideal)) (w : (⟨Cert.ReferenceIdeal.S16x8, .f32⟩ : BufTy).Contents (Elt Ideal))
    (r : Fin 100000) (q : Fin 8) :
    Cert.Spec.lin2 (F := Ideal) x w (ix2 r q) = ∑ k : Fin 16, x (ix2 r k) * w (ix2 k q) := by
  unfold Cert.Spec.lin2
  simp only [Host.dotGeneral]
  refine (Ideal.dotGeneral_apply Cert.ReferenceIdeal.dot_S100000x16_S16x8_S100000x8_1_0_0_1_n_n none _ _ _ (ix2 r q)).trans ?_
  exact region2_dot_sum_reindex Cert.ReferenceIdeal.dot_S100000x16_S16x8_S100000x8_1_0_0_1_n_n rfl rfl region2_rdot_l0 region2_rdot_l1 region2_rdot_r0 region2_rdot_r1 x w r q

/-! ## From blocks to the array -/

open Cert.KernelIdeal Cert.KernelIdeal.Gen

/-- The zero offsets of a whole-buffer access, as the constant function. -/
theorem region2_hz : (![0, 0] : Fin 2 → Nat) = fun _ => 0 := funext fun a => by fin_cases a <;> rfl

/-- The region's printed index maps, decided over its ten grid points: at point `t` the table's window and the
    result's window are at block `(t, 0)`, the matrix's window at block `(0, 0)`. -/
theorem region2_idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section Blocks
variable (V : (c : Dev nD) → (b : Ref sig .tc) → Buf (Elt Ideal) ((c : Thread nD τ).loc b))

/-- The table's block at point `t` is rows `10000 t … 10000 t + 9999` of the table: entry `(p, k)` of the block is
    entry `(10000 t + p, k)` of the array (a block's coordinate is the block index times the block's size plus the
    coordinate inside the block). -/
theorem region2_iblk_table_apply (c : Dev nD) (t : Fin cfg2.N) (p : Fin 10000) (k : Fin 16) (r : Fin 100000)
    (hr : r.val = 10000 * t.val + p.val) :
    (iblk2 V c 0 t : Vec Ideal S10000x16 .f32) (ix2 p k)
      = (V c main_v47 : S100000x16.Idx → Elt Ideal .f32) (ix2 r k) := by
  obtain ⟨e0, e1, -⟩ := region2_idx_facts t
  unfold iblk2
  rw [View.read_apply]
  show V c main_v47 _ = V c main_v47 _
  refine congrArg (V c main_v47) ?_
  funext a
  apply Fin.ext
  match a with
  | ⟨0, _⟩ => show win2_0.index t (0 : Fin 2) * 10000 + 1 * p.val = r.val; rw [e0, hr]; omega
  | ⟨1, _⟩ => show win2_0.index t (1 : Fin 2) * 16 + 1 * k.val = k.val; rw [e1]; omega

/-- The matrix's block at every point is the whole matrix. -/
theorem region2_iblk_matrix_apply (c : Dev nD) (t : Fin cfg2.N) (k : Fin 16) (q : Fin 8) :
    (iblk2 V c 1 t : Vec Ideal S16x8 .f32) (ix2 k q)
      = (V c main_arg4 : S16x8.Idx → Elt Ideal .f32) (ix2 k q) := by
  obtain ⟨-, -, e0, e1, -⟩ := region2_idx_facts t
  unfold iblk2
  rw [View.read_apply]
  show V c main_arg4 _ = V c main_arg4 _
  refine congrArg (V c main_arg4) ?_
  funext a
  apply Fin.ext
  match a with
  | ⟨0, _⟩ => show win2_1.index t (0 : Fin 2) * 16 + 1 * k.val = k.val; rw [e0]; omega
  | ⟨1, _⟩ => show win2_1.index t (1 : Fin 2) * 8 + 1 * q.val = q.val; rw [e1]; omega

/-- WHAT POINT `t` WRITES BACK: the tile of the product stored at point `t` is block `t` of the specification's
    second dense layer of the arrays the region is entered with. Entry `(p, q)` of the tile is the sum over `k` of the loaded table
    block at `(p, k)` times the loaded matrix at `(k, q)`; the block is rows `10000 t …` of the table, and entry
    `(10000 t + p, q)` of the specification's array is the same sum. -/
theorem region2_flushed_eq (c : Dev nD) (t : Fin cfg2.N) :
    (dat2 (F := Ideal) V c).flushed 2 t
      = ((cfg2.win 2).blk t).view.read (Elt Ideal) (Cert.Spec.lin2 (F := Ideal) (V c main_v47) (V c main_arg4)) := by
  show (cfg2.win 2).cut (grid2.coords t) ((dat2 V c).after 2 t) = _
  rw [after2_2]
  unfold out2_2
  rw [View.canon_unit_zero region2_hz]
  simp only [View.ld_unit_zero (S := S10000x16) region2_hz, View.ld_unit_zero (S := S16x8) region2_hz]
  funext j
  obtain ⟨p, q, rfl⟩ : ∃ (p : Fin 10000) (q : Fin 8), j = ix2 p q := ⟨j 0, j 1, eq_ix2 j⟩
  have hN : cfg2.N = 10 := N_2
  have ht : t.val < 10 := hN ▸ t.isLt
  obtain ⟨-, -, -, -, e0, e1⟩ := region2_idx_facts t
  -- the row of the array that row `p` of the tile lands on
  have hrow : 10000 * t.val + p.val < 100000 := by have := p.isLt; omega
  have he : ((cfg2.win 2).blk t).view.emb (ix2 p q)
      = (ix2 (⟨10000 * t.val + p.val, hrow⟩ : Fin 100000) q : S100000x8.Idx) := by
    funext a
    apply Fin.ext
    match a with
    | ⟨0, _⟩ => show win2_2.index t (0 : Fin 2) * 10000 + 1 * p.val = 10000 * t.val + p.val; rw [e0]; omega
    | ⟨1, _⟩ => show win2_2.index t (1 : Fin 2) * 8 + 1 * q.val = q.val; rw [e1]; omega
  show k2_pay1 (F := Ideal) (iblk2 V c 0 t) (iblk2 V c 1 t) (ix2 p q)
    = Cert.Spec.lin2 (F := Ideal) (V c main_v47) (V c main_arg4) (((cfg2.win 2).blk t).view.emb (ix2 p q))
  rw [he]
  refine (region2_pay_apply (iblk2 V c 0 t) (iblk2 V c 1 t) p q).trans ?_
  refine Eq.trans ?_ (region2_spec_apply (V c main_v47) (V c main_arg4) ⟨10000 * t.val + p.val, hrow⟩ q).symm
  refine Finset.sum_congr rfl fun k _ => ?_
  rw [region2_iblk_table_apply V c t p k ⟨10000 * t.val + p.val, hrow⟩ rfl, region2_iblk_matrix_apply V c t k q]

end Blocks

/-- An entry of the result array is in point `t`'s block iff each coordinate is in the block's range on its axis:
    rows `10000 t … 10000 t + 9999`, all 8 columns. -/
theorem region2_mem_blk (t : Fin cfg2.N) (i : S100000x8.Idx) :
    i ∈ ((cfg2.win 2).blk t).view.set ↔ ∀ a : Fin 2, win2_2.index t a * S10000x8.size a ≤ (i a).val
      ∧ (i a).val < win2_2.index t a * S10000x8.size a + S10000x8.size a := by
  show i ∈ ((View.whole main_v48).slice (win2_2.rect t)).set ↔ _
  rw [View.set_slice_whole, Rect.mem_set_unit]
  exact Iff.rfl

/-- The ten row blocks tile the result: row `r` is in the block of point `r / 10000`, and every point writes back. -/
theorem region2_cover (i : S100000x8.Idx) :
    ∃ t : Fin cfg2.N, (cfg2.win 2).flush t = true ∧ i ∈ ((cfg2.win 2).blk t).view.set := by
  have hN : cfg2.N = 10 := N_2
  have hi0 : (i 0).val < 100000 := (i 0).isLt
  have hi1 : (i 1).val < 8 := (i 1).isLt
  obtain ⟨T, hT⟩ : ∃ T : Fin cfg2.N, T.val = (i 0).val / 10000 := ⟨⟨(i 0).val / 10000, by rw [hN]; omega⟩, rfl⟩
  refine ⟨T, flush2_2 T, ?_⟩
  rw [region2_mem_blk]
  obtain ⟨-, -, -, -, e0, e1⟩ := region2_idx_facts T
  intro a
  match a with
  | ⟨0, _⟩ =>
    show win2_2.index T (0 : Fin 2) * 10000 ≤ (i 0).val ∧ (i 0).val < win2_2.index T (0 : Fin 2) * 10000 + 10000
    rw [e0, hT]; omega
  | ⟨1, _⟩ =>
    show win2_2.index T (1 : Fin 2) * 8 ≤ (i 1).val ∧ (i 1).val < win2_2.index T (1 : Fin 2) * 8 + 8
    rw [e1]; omega

/-- THE SECOND PRODUCT'S REGION: entered with any contents `V`, the region leaves in its result array the specification's
    second dense layer of the table and the matrix it finds — every block written back is that block of the product, and the
    ten blocks tile the array. -/
theorem region2 (V : (c : Dev Cert.KernelIdeal.nD) → (b : Ref Cert.KernelIdeal.sig .tc) → Buf (Elt Ideal) ((c : Thread Cert.KernelIdeal.nD Cert.KernelIdeal.τ).loc b)) (c : Dev Cert.KernelIdeal.nD) :
    (Cert.KernelIdeal.Gen.dat2 (F := Ideal) V c).arrAt 2 Cert.KernelIdeal.cfg2.N
      = Cert.Spec.lin2 (F := Ideal) (V c Cert.KernelIdeal.main_v47) (V c Cert.KernelIdeal.main_arg4) :=
  (Cert.KernelIdeal.Gen.dat2 (F := Ideal) V c).arrAt_eq_of_cover 2 _ (fun t _ => region2_flushed_eq V c t) region2_cover

end Cert.Bridge

end
-- ==== Proof.Region3.lean ====
/-
  REGION 3, the bias and row-wise log-softmax: the region's result array is `Spec.biasLsm` of the two arrays it is entered with.

  The mathematics. The grid has ten points over the rows of a [100000, 8] table `a`. Point `t` loads rows
  `10000 t … 10000 t + 9999` of `a` and the whole [1, 8] bias row `b`, and stores a [10000, 8] tile: with `z = a + b` (the
  bias row added to every row), `m` the maximum of each row of `z` (a reduction along the eight lanes from `-∞`), and
  `s = z - m`, the tile is `s - log (∑ exp s)`, the sum along the eight lanes from zero. The specification computes the same
  on the whole table: the row maximum as a fold from `-∞` followed by one more maximum with `-∞`, which changes nothing
  (a fold of `max` is at least its initial value), and the row sum from the zero word.

  Both sides are read ROW BY ROW through one function `region3_rowLsm` of a row of eight extended reals: entry `(p, q)` of
  the tile is `region3_rowLsm` of row `p` of the loaded block plus the bias row (`region3_tile_row`), entry `(r, q)` of the
  specification is `region3_rowLsm` of row `r` of the table plus the bias row (`region3_spec_row`); neither side's reduction
  is ever compared with the other's except through the row's eight entries. Each lane reduction is the fold, respectively
  the sum, over the eight coordinates of the reduced axis; the exponential and the logarithm are one function each on both
  sides at the ideal values. Row `p` of point `t`'s block is row `10000 t + p` of the table, the ten blocks tile the result,
  and every point writes its block back: so the result array is the specification's, entry by entry.
-/
import proofs.«123840_j84799834293080_1_alg».proof.Proof.Spec
import proofs.«123840_j84799834293080_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.TcCoe Idealize.SL.Sem
open Idealize.ShloMosaic.Pipeline (Dat)
open Idealize.ShloMosaic.ValueIdx

/-- The log-softmax of one row of eight extended reals, entry `q`: the row shifted by its maximum (the fold of
    `max` from the word `0xFF800000`, f32's `-∞`), minus the logarithm of the sum of the shifted row's exponentials. -/
def region3_rowLsm (z : Fin 8 → EReal) (q : Fin 8) : EReal :=
  (z q - (Finset.univ : Finset (Fin 8)).fold max (Ideal.ofBits .f32 0xFF800000#32) z)
    - Ideal.log (∑ k : Fin 8, Ideal.exp (z k - (Finset.univ : Finset (Fin 8)).fold max (Ideal.ofBits .f32 0xFF800000#32) z))

section Layout
variable {α : Type}

/-- A vector `[a]` cast to the column `[a, 1]` reads, at `(p, u)`, the operand at `p`: the two row-major positions are `p`. -/
theorem region3_shapeCast_column {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem region3_broadcastTo_column {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

section Tile
open Cert.KernelIdeal

/-- A tile's row maximum: the lane reduction along axis 1 from `-∞`, read at row `p`, is the fold of `max` over the
    row's eight entries (the index of the source over row `p` with column `k` inserted is `(p, k)`). -/
theorem region3_tile_rowMax (z : FVec Ideal S10000x8 .f32) (hφ : FKind.Formats .f32) (hacc : (0xFF800000#32 : BitVec 32) = 0xFF800000#32) (p : Fin 10000) :
    multiReduction .maximumf [1] S10000 z 0xFF800000#32 Gen.reduces_S10000x8_S10000 hφ hacc (ix1 p)
      = (Finset.univ : Finset (Fin 8)).fold max (Ideal.ofBits .f32 0xFF800000#32) (fun k => z (ix2 p k)) := by
  refine (Ideal.multiReduction_maximumf_single z _ _ hφ hacc (ix1 p)).trans ?_
  exact congrArg (fun f : Fin 8 → EReal => Finset.fold max (Ideal.ofBits .f32 0xFF800000#32) f Finset.univ)
    (funext fun k => congrArg z (funext fun a => Fin.ext (by match a with | ⟨0, _⟩ => rfl | ⟨1, _⟩ => rfl)))

/-- A tile's row sum: the lane reduction along axis 1 from zero, read at row `p`, is the sum of the row's eight entries. -/
theorem region3_tile_rowSum (e : FVec Ideal S10000x8 .f32) (hφ : FKind.Formats .f32) (hacc : (0x00000000#32 : BitVec 32) = 0x00000000#32) (p : Fin 10000) :
    multiReduction .add [1] S10000 e 0x00000000#32 Gen.reduces_S10000x8_S10000 hφ hacc (ix1 p)
      = ∑ k : Fin 8, e (ix2 p k) := by
  refine (Ideal.multiReduction_add_single e _ _ hφ hacc (ix1 p)).trans ?_
  exact Finset.sum_congr rfl fun k _ => congrArg e (funext fun a => Fin.ext (by match a with | ⟨0, _⟩ => rfl | ⟨1, _⟩ => rfl))

/-- A per-row vector `[10000]`, cast to a column and broadcast over the eight lanes, reads at `(p, c)` its entry `p`. -/
theorem region3_tile_col (f : FVec Ideal S10000 .f32) (p : Fin 10000) (c : Fin 8) :
    broadcastTo S10000x8 (shapeCast S10000x1 f Gen.shapeCasts_S10000_S10000x1) Gen.broadcasts_S10000x1_S10000x8 (ix2 p c) = f (ix1 p) :=
  (region3_broadcastTo_column _ _ p c).trans (region3_shapeCast_column f _ p 0)

/-- The same through a logarithm taken on the column. -/
theorem region3_tile_colLog (f : FVec Ideal S10000 .f32) (p : Fin 10000) (c : Fin 8) :
    broadcastTo S10000x8 (log (shapeCast S10000x1 f Gen.shapeCasts_S10000_S10000x1)) Gen.broadcasts_S10000x1_S10000x8 (ix2 p c) = Ideal.log (f (ix1 p)) :=
  (region3_broadcastTo_column _ _ p c).trans (congrArg Ideal.log (region3_shapeCast_column f _ p 0))

/-- The logits of a tile: the block of the table plus the bias row, at `(p, k)`. -/
theorem region3_tile_logits (x0 : FVec Ideal S10000x8 .f32) (x1 : FVec Ideal S1x8 .f32) (p : Fin 10000) (k : Fin 8) :
    addf (shapeCast S10000x8 x0 Gen.shapeCasts_S10000x8_S10000x8)
      (broadcastTo S10000x8 (shapeCast S1x8 x1 Gen.shapeCasts_S1x8_S1x8) Gen.broadcasts_S1x8_S10000x8) (ix2 p k)
      = x0 (ix2 p k) + x1 (ix2 (0 : Fin 1) k) := by
  rw [shapeCast_self, shapeCast_self, addf_apply, broadcastTo_1b_ab_apply]

end Tile

section Payload
open Cert.KernelIdeal

/-- An exponential taken entry by entry, read at an index. -/
theorem region3_exp_apply {s : Shape} {φ : FTy} (v : FVec Ideal s φ) (i : s.Idx) : exp v i = Ideal.exp (v i) := rfl

/-- THE KERNEL'S TILE, ROW BY ROW: entry `(p, q)` of what the body computes from a block `x0` of the table and the
    bias row `x1` is the log-softmax of row `p` of `x0 + x1` at `q`; it depends on row `p` of the block only. -/
theorem region3_tile_row (x0 : FVec Ideal S10000x8 .f32) (x1 : FVec Ideal S1x8 .f32) (p : Fin 10000) (q : Fin 8) :
    Gen.k3_pay1 (F := Ideal) x0 x1 (ix2 p q) = region3_rowLsm (fun k => x0 (ix2 p k) + x1 (ix2 (0 : Fin 1) k)) q := by
  unfold Gen.k3_pay1 region3_rowLsm
  rw [subf_apply, subf_apply, region3_tile_colLog, region3_tile_col, region3_tile_rowSum, region3_tile_rowMax]
  simp only [region3_exp_apply, subf_apply, region3_tile_col, region3_tile_logits]
  rw [region3_tile_rowMax]
  simp only [region3_tile_logits]

end Payload

section Host
open Cert.ReferenceIdeal Cert.ReferenceIdeal.Gen

/-- The host's logits at `(r, k)`: the table's entry plus the bias row's entry of column `k`. -/
theorem region3_logits_apply (a : (⟨S100000x8, .f32⟩ : BufTy).Contents (Elt Ideal)) (b : (⟨S1x8, .f32⟩ : BufTy).Contents (Elt Ideal))
    (r : Fin 100000) (k : Fin 8) :
    Cert.Spec.logits (F := Ideal) a b (ix2 r k) = a (ix2 r k) + b (ix2 (0 : Fin 1) k) := by
  unfold Cert.Spec.logits
  rw [addf_apply]
  exact congrArg (a (ix2 r k) + ·) (broadcastInDim_apply _ bcast_S1x8_S100000x8_0_1 b (ix2 r k) (ix2 (0 : Fin 1) k) (fun ax => match ax with
    | ⟨0, _⟩ => by show 0 = if (1 : Nat) = 1 then 0 else r.val; rw [if_pos rfl]
    | ⟨1, _⟩ => by show k.val = if (8 : Nat) = 1 then 0 else k.val; rw [if_neg (by decide)]))

/-- A per-row vector spread to a column and broadcast over the eight columns reads, at `(r, c)`, its entry `r`. -/
theorem region3_spread_col (v : (⟨S100000, .f32⟩ : BufTy).Contents (Elt Ideal)) (r : Fin 100000) (c : Fin 8) :
    broadcastInDim S100000x8 ![0, 1] bcast_S100000x1_S100000x8_0_1 (Cert.Spec.spread (F := Ideal) v) (ix2 r c) = v (ix1 r) := by
  unfold Cert.Spec.spread
  refine (broadcastInDim_apply _ bcast_S100000x1_S100000x8_0_1 _ (ix2 r c) (ix2 r (0 : Fin 1)) (fun ax => match ax with
    | ⟨0, _⟩ => by show r.val = if (100000 : Nat) = 1 then 0 else r.val; rw [if_neg (by decide)]
    | ⟨1, _⟩ => by show 0 = if (1 : Nat) = 1 then 0 else c.val; rw [if_pos rfl])).trans ?_
  exact broadcastInDim_apply _ bcast_S100000_S100000x1_0 v (ix2 r (0 : Fin 1)) (ix1 r) (fun ax => match ax with
    | ⟨0, _⟩ => by show r.val = if (100000 : Nat) = 1 then 0 else r.val; rw [if_neg (by decide)])

/-- The same through a logarithm taken on the column. -/
theorem region3_spread_colLog (v : (⟨S100000, .f32⟩ : BufTy).Contents (Elt Ideal)) (r : Fin 100000) (c : Fin 8) :
    broadcastInDim S100000x8 ![0, 1] bcast_S100000x1_S100000x8_0_1 (Host.log (F := Ideal) (s := S100000x1) (φ := .f32) (Cert.Spec.spread (F := Ideal) v)) (ix2 r c) = Ideal.log (v (ix1 r)) := by
  unfold Cert.Spec.spread
  refine (broadcastInDim_apply _ bcast_S100000x1_S100000x8_0_1 _ (ix2 r c) (ix2 r (0 : Fin 1)) (fun ax => match ax with
    | ⟨0, _⟩ => by show r.val = if (100000 : Nat) = 1 then 0 else r.val; rw [if_neg (by decide)]
    | ⟨1, _⟩ => by show 0 = if (1 : Nat) = 1 then 0 else c.val; rw [if_pos rfl])).trans ?_
  exact congrArg Ideal.log (broadcastInDim_apply _ bcast_S100000_S100000x1_0 v (ix2 r (0 : Fin 1)) (ix1 r) (fun ax => match ax with
    | ⟨0, _⟩ => by show r.val = if (100000 : Nat) = 1 then 0 else r.val; rw [if_neg (by decide)]))

/-- The host's row maximum at row `r`: the fold of `max` from `-∞` over the row's eight entries; taking the maximum with
    the initial value once more changes nothing, the fold being at least its initial value. -/
theorem region3_rowMax_apply (z : (⟨S100000x8, .f32⟩ : BufTy).Contents (Elt Ideal)) (r : Fin 100000) :
    Cert.Spec.rowMax (F := Ideal) z (ix1 r)
      = (Finset.univ : Finset (Fin 8)).fold max (Ideal.ofBits .f32 0xFF800000#32) (fun k => z (ix2 r k)) := by
  unfold Cert.Spec.rowMax
  rw [maximumf_apply, Host.reduce_eq_fold_single FloatOps.maximumf _ _ reducesTo_S100000x8_S100000_d1 (by decide) h_S_]
  have e1 : broadcastInDim S100000 ![] bcast_S_S100000 (constant (F := Ideal) S_ .f32 0xFF800000#32) (ix1 r)
      = Ideal.ofBits .f32 0xFF800000#32 :=
    broadcastInDim_apply _ bcast_S_S100000 _ (ix1 r) (fun a => a.elim0) (fun a => a.elim0)
  rw [e1]
  refine Eq.trans (congrArg (max _) (?_ : _ = (Finset.univ : Finset (Fin 8)).fold max (Ideal.ofBits .f32 0xFF800000#32) (fun k => z (ix2 r k))))
    (max_eq_right ((Finset.le_fold_max _).mpr (Or.inl le_rfl)))
  exact congrArg (fun f : Fin 8 → EReal => Finset.fold max (Ideal.ofBits .f32 0xFF800000#32) f Finset.univ)
    (funext fun k => congrArg z (funext fun a => Fin.ext (by match a with | ⟨0, _⟩ => rfl | ⟨1, _⟩ => rfl)))

/-- The host's row sum at row `r`: from the zero word, the sum of the row's eight entries. -/
theorem region3_rowSum_apply (e : (⟨S100000x8, .f32⟩ : BufTy).Contents (Elt Ideal)) (r : Fin 100000) :
    Host.reduceAdd (F := Ideal) e (constant S_ .f32 0x00000000#32) reducesTo_S100000x8_S100000_d1 h_S_ (ix1 r)
      = ∑ k : Fin 8, e (ix2 r k) := by
  simp only [Host.reduceAdd, Ideal.hostReduceAdd_def]
  rw [Ideal.hostReduceAdd_single reducesTo_S100000x8_S100000_d1 (by decide), constant_apply, Ideal.ofBits_zero_f32, zero_add]
  exact Finset.sum_congr rfl fun k _ => congrArg e (funext fun a => Fin.ext (by match a with | ⟨0, _⟩ => rfl | ⟨1, _⟩ => rfl))

/-- The host's exponential taken entry by entry, read at an index. -/
theorem region3_hostExp_apply {s : Shape} {φ : FTy} (v : FVec Ideal s φ) (i : s.Idx) : Host.exp v i = Ideal.exp (v i) := rfl

/-- THE SPECIFICATION, ROW BY ROW: entry `(r, q)` of the log-softmax of `a + b` is the log-softmax of row `r` of
    `a + b` at `q`; it depends on row `r` of `a` only. -/
theorem region3_spec_row (a : (⟨S100000x8, .f32⟩ : BufTy).Contents (Elt Ideal)) (b : (⟨S1x8, .f32⟩ : BufTy).Contents (Elt Ideal))
    (r : Fin 100000) (q : Fin 8) :
    Cert.Spec.biasLsm (F := Ideal) a b (ix2 r q) = region3_rowLsm (fun k => a (ix2 r k) + b (ix2 (0 : Fin 1) k)) q := by
  have hs : ∀ k : Fin 8, Cert.Spec.shifted (F := Ideal) (Cert.Spec.logits a b) (ix2 r k)
      = (a (ix2 r k) + b (ix2 (0 : Fin 1) k))
        - (Finset.univ : Finset (Fin 8)).fold max (Ideal.ofBits .f32 0xFF800000#32) (fun k' => a (ix2 r k') + b (ix2 (0 : Fin 1) k')) := by
    intro k
    unfold Cert.Spec.shifted
    rw [subf_apply, region3_spread_col, region3_rowMax_apply, region3_logits_apply]
    simp only [region3_logits_apply]
  unfold Cert.Spec.biasLsm Cert.Spec.lsmOfShifted region3_rowLsm
  rw [subf_apply, region3_spread_colLog, region3_rowSum_apply, hs]
  exact congrArg (_ - Ideal.log ·) (Finset.sum_congr rfl fun k _ => by rw [region3_hostExp_apply, hs])

end Host

section Blocks
open Cert.KernelIdeal

variable (V : (c : Dev nD) → (b : Ref sig .tc) → Buf (Elt Ideal) ((c : Thread nD τ).loc b))

/-- The zero offsets of a whole-buffer access, however spelt. -/
theorem region3_zero : (![0, 0] : Fin 2 → Nat) = fun _ => 0 := funext fun a => by fin_cases a <;> rfl

/-- The printed index maps over the ten grid points: at point `t` the table's and the result's blocks are block `(t, 0)`
    of their arrays, and the bias row's block is the whole row, block `(0, 0)`. -/
theorem region3_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The table's block at point `t` is rows `10000 t … 10000 t + 9999` of the table as the region finds it. -/
theorem region3_table_block (c : Dev nD) (t : Fin cfg3.N) (p : Fin 10000) (k : Fin 8) (r : Fin 100000) (hr : r.val = 10000 * t.val + p.val) :
    (Gen.iblk3 V c 0 t : FVec Ideal S10000x8 .f32) (ix2 p k) = (V c main_v61 : FVec Ideal S100000x8 .f32) (ix2 r k) := by
  obtain ⟨e0, e1, -, -, -, -⟩ := region3_index t
  unfold Gen.iblk3
  rw [View.read_apply]
  show V c main_v61 _ = V c main_v61 _
  congr 1
  funext a
  apply Fin.ext
  match a with
  | ⟨0, _⟩ => show win3_0.index t (0 : Fin 2) * 10000 + 1 * p.val = r.val; rw [e0, hr]; omega
  | ⟨1, _⟩ => show win3_0.index t (1 : Fin 2) * 8 + 1 * k.val = k.val; rw [e1]; omega

/-- The bias row's block at every point is the whole row. -/
theorem region3_bias_block (c : Dev nD) (t : Fin cfg3.N) (k : Fin 8) :
    (Gen.iblk3 V c 1 t : FVec Ideal S1x8 .f32) (ix2 (0 : Fin 1) k) = (V c main_v62 : FVec Ideal S1x8 .f32) (ix2 (0 : Fin 1) k) := by
  obtain ⟨-, -, e2, e3, -, -⟩ := region3_index t
  unfold Gen.iblk3
  rw [View.read_apply]
  show V c main_v62 _ = V c main_v62 _
  congr 1
  funext a
  apply Fin.ext
  match a with
  | ⟨0, _⟩ => show win3_1.index t (0 : Fin 2) * 1 + 1 * 0 = 0; rw [e2]
  | ⟨1, _⟩ => show win3_1.index t (1 : Fin 2) * 8 + 1 * k.val = k.val; rw [e3]; omega

end Blocks

section Array
open Cert.KernelIdeal

variable (V : (c : Dev nD) → (b : Ref sig .tc) → Buf (Elt Ideal) ((c : Thread nD τ).loc b))

/-- Entry `(p, q)` of the result's block at point `t` is the result's entry `(10000 t + p, q)`: on each axis the block
    index times the block's extent plus the entry's own coordinate. -/
theorem region3_result_block (t : Fin cfg3.N) (p : Fin 10000) (q : Fin 8) (r : Fin 100000) (hr : r.val = 10000 * t.val + p.val) :
    ((cfg3.win 2).blk t).view.emb (ix2 p q) = ix2 r q := by
  obtain ⟨-, -, -, -, e4, e5⟩ := region3_index t
  funext a
  apply Fin.ext
  match a with
  | ⟨0, _⟩ => show win3_2.index t (0 : Fin 2) * 10000 + 1 * p.val = r.val; rw [e4, hr]; omega
  | ⟨1, _⟩ => show win3_2.index t (1 : Fin 2) * 8 + 1 * q.val = q.val; rw [e5]; omega

/-- WHAT POINT `t` WRITES BACK is its block of the specification's array: the body's one store through the whole staging
    buffer leaves the tile, whose entry `(p, q)` is the log-softmax of row `p` of the table's block plus the bias row, and
    that row is row `10000 t + p` of the table; the specification's entry `(10000 t + p, q)` is the log-softmax of the same row. -/
theorem region3_writeback (c : Dev nD) (t : Fin cfg3.N) :
    (Gen.dat3 (F := Ideal) V c).flushed 2 t
      = ((cfg3.win 2).blk t).view.read (Elt Ideal) (Cert.Spec.biasLsm (F := Ideal) (V c main_v61) (V c main_v62)) := by
  show (cfg3.win 2).cut (grid3.coords t) ((Gen.dat3 (F := Ideal) V c).after 2 t) = _
  rw [Gen.after3_2]
  unfold Gen.out3_2
  rw [View.canon_unit_zero region3_zero]
  simp only [View.ld_unit_zero (S := S10000x8) region3_zero, View.ld_unit_zero (S := S1x8) region3_zero]
  funext j
  obtain ⟨p, q, rfl⟩ : ∃ (p : Fin 10000) (q : Fin 8), j = ix2 p q := ⟨j 0, j 1, eq_ix2 j⟩
  have hN : cfg3.N = 10 := Gen.N_3
  have ht : t.val < 10 := by have := t.isLt; omega
  have hp : p.val < 10000 := p.isLt
  obtain ⟨r, hr⟩ : ∃ r : Fin 100000, r.val = 10000 * t.val + p.val := ⟨⟨10000 * t.val + p.val, by omega⟩, rfl⟩
  show Gen.k3_pay1 (F := Ideal) (Gen.iblk3 V c 0 t) (Gen.iblk3 V c 1 t) (ix2 p q)
    = Cert.Spec.biasLsm (F := Ideal) (V c main_v61) (V c main_v62) (((cfg3.win 2).blk t).view.emb (ix2 p q))
  rw [region3_result_block t p q r hr]
  refine (region3_tile_row _ _ p q).trans (Eq.trans ?_ (region3_spec_row _ _ r q).symm)
  exact congrArg (fun z : Fin 8 → EReal => region3_rowLsm z q)
    (funext fun k => congrArg₂ (· + ·) (region3_table_block V c t p k r hr) (region3_bias_block V c t k))

/-- An entry of the result lies in point `t`'s block iff each coordinate lies in the block's range on its axis. -/
theorem region3_mem_block (t : Fin cfg3.N) (i : S100000x8.Idx) :
    i ∈ ((cfg3.win 2).blk t).view.set ↔ ∀ a : Fin 2, win3_2.index t a * S10000x8.size a ≤ (i a).val
      ∧ (i a).val < win3_2.index t a * S10000x8.size a + S10000x8.size a := by
  show i ∈ ((View.whole main_v63).slice (win3_2.rect t)).set ↔ _
  rw [View.set_slice_whole, Rect.mem_set_unit]
  exact Iff.rfl

/-- The ten blocks tile the result: row `r` lies in the block of point `r / 10000`, and every point writes back. -/
theorem region3_cover (i : S100000x8.Idx) :
    ∃ t : Fin cfg3.N, (cfg3.win 2).flush t = true ∧ i ∈ ((cfg3.win 2).blk t).view.set := by
  have hN : cfg3.N = 10 := Gen.N_3
  have hi0 : (i 0).val < 100000 := (i 0).isLt
  have hi1 : (i 1).val < 8 := (i 1).isLt
  obtain ⟨t, ht⟩ : ∃ t : Fin cfg3.N, t.val = (i 0).val / 10000 := ⟨⟨(i 0).val / 10000, by rw [hN]; omega⟩, rfl⟩
  obtain ⟨-, -, -, -, e4, e5⟩ := region3_index t
  refine ⟨t, Gen.flush3_2 t, ?_⟩
  rw [region3_mem_block]
  intro a
  match a with
  | ⟨0, _⟩ =>
    show win3_2.index t (0 : Fin 2) * 10000 ≤ (i 0).val ∧ (i 0).val < win3_2.index t (0 : Fin 2) * 10000 + 10000
    rw [e4, ht]; omega
  | ⟨1, _⟩ =>
    show win3_2.index t (1 : Fin 2) * 8 ≤ (i 1).val ∧ (i 1).val < win3_2.index t (1 : Fin 2) * 8 + 8
    rw [e5]; omega

end Array

/-- REGION 3: after its ten points the region's result array is the row-wise log-softmax of the table it is entered
    with plus the bias row, as the specification spells it. -/
theorem region3 (V : (c : Dev Cert.KernelIdeal.nD) → (b : Ref Cert.KernelIdeal.sig .tc) → Buf (Elt Ideal) ((c : Thread Cert.KernelIdeal.nD Cert.KernelIdeal.τ).loc b)) (c : Dev Cert.KernelIdeal.nD) :
    (Cert.KernelIdeal.Gen.dat3 (F := Ideal) V c).arrAt 2 Cert.KernelIdeal.cfg3.N
      = Cert.Spec.biasLsm (F := Ideal) (V c Cert.KernelIdeal.main_v61) (V c Cert.KernelIdeal.main_v62) :=
  (Cert.KernelIdeal.Gen.dat3 (F := Ideal) V c).arrAt_eq_of_cover 2 _ (fun t _ => region3_writeback V c t) region3_cover

end Cert.Bridge

end
-- ==== Proof.RefRun.lean ====
/-
  The reference program's run, read back as `Cert.Spec.G` of its six arguments.

  The reference is a straight line of 101 host operations. Run from any memory, every buffer ends at the fold of the
  operations' results over the launch contents (`StableHlo.run_seq`). The fold is read in four consecutive stretches,
  each from an ARBITRARY valuation `W` of the buffers, so that each reading is a small term:
    1. operations 1 to 43: from the edge list, the source and target index vectors with one self loop per node
       appended, the in-degrees (ones scatter-added at the targets), `dis = deg^(-1/2)` where the degree is positive,
       and the weight `dis[src] * dis[dst]` of every edge — `Spec.srcOf`, `Spec.dstOf`, `Spec.normOf`;
    2. operations 44 to 66: `x · W1`, one propagation step along the weighted edges (gather the rows at `src`, scale,
       scatter-add at `dst`), the bias row added and the maximum with 0 taken — `Spec.biasRelu (Spec.agg16 (Spec.lin1 …) …) …`;
    3. operations 67 to 86: `h · W2`, the same propagation step on 8 columns, the bias row added — `Spec.logits (Spec.agg8 (Spec.lin2 …) …) …`;
    4. operations 87 to 101: the row-wise log-softmax `z - max z - log (sum (exp (z - max z)))` — `Spec.lsmOfShifted (Spec.shifted …)`.
  A stretch leaves every buffer it does not write as it was, in particular the arguments and the earlier stretches'
  results that later ones read. Composing the four readings gives `G` at the argument buffers; at the launch contents
  that is the statement about the run.
-/
import proofs.«123840_j84799834293080_1_alg».proof.Proof.Spec
import proofs.«123840_j84799834293080_1_alg».proof.Proof.RefRunGen
import proofs.«123840_j84799834293080_1_alg».proof.Defs
import Idealize.ShloMosaic.Lib.StableHlo.Run

noncomputable section

namespace Cert.Bridge

open Cert.ReferenceIdeal Cert.ReferenceIdeal.Gen Idealize.ShloMosaic Idealize.ShloMosaic.TcCoe Idealize.SL.Sem Idealize.ShloMosaic.StableHlo

variable {F : FTy → Type} [FloatOps F]

/-- Running two lines one after the other is running their concatenation. -/
theorem ref_after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- Operations 1 to 43: the index vectors with their self loops (`main_v3`, `main_v6`), the degrees, their inverse square
    roots and the weight of every edge (`main_v31`). -/
def refOpsNorm : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S3300000 ![] bcast_S_S3300000 : (⟨S_, .i32⟩ : BufTy).Contents (Elt F) → (⟨S3300000, .i32⟩ : BufTy).Contents (Elt F)),
    binary main_v3 main_v17 main_v18 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v19 (broadcastInDim S3300000 ![] bcast_S_S3300000 : (⟨S_, .i32⟩ : BufTy).Contents (Elt F) → (⟨S3300000, .i32⟩ : BufTy).Contents (Elt F)),
    binary main_v3 main_v19 main_v20 (addi : (⟨S3300000, .i32⟩ : BufTy).Contents (Elt F) → (⟨S3300000, .i32⟩ : BufTy).Contents (Elt F) → (⟨S3300000, .i32⟩ : BufTy).Contents (Elt F)),
    ternary main_v18 main_v20 main_v3 main_v21 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v21 main_v22 (broadcastInDim S3300000x1 ![0] bcast_S3300000_S3300000x1_0 : (⟨S3300000, .i32⟩ : BufTy).Contents (Elt F) → (⟨S3300000x1, .i32⟩ : BufTy).Contents (Elt F)),
    binary main_v16 main_v22 main_v23 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_5 (constantI S_ 32 0#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v16 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)) ]

/-- Operations 44 to 66: the first dense layer, its propagation along the weighted edges, bias and ReLU (`main_v49`). -/
def refOpsHidden : List (HloOp τ sig (Elt F)) :=
  [ binary main_arg0 main_arg2 main_v32 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    unary main_v31 main_v33 (broadcastInDim S3300000x1 ![0] bcast_S3300000_S3300000x1_0 : (⟨S3300000, .f32⟩ : BufTy).Contents (Elt F) → (⟨S3300000x1, .f32⟩ : BufTy).Contents (Elt F)),
    nullary main_c_7 (constantI S_ 32 0#32),
    unary main_c_7 main_v34 (broadcastInDim S3300000 ![] bcast_S_S3300000 : (⟨S_, .i32⟩ : BufTy).Contents (Elt F) → (⟨S3300000, .i32⟩ : BufTy).Contents (Elt F)),
    binary main_v3 main_v34 main_v35 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v36 (broadcastInDim S3300000 ![] bcast_S_S3300000 : (⟨S_, .i32⟩ : BufTy).Contents (Elt F) → (⟨S3300000, .i32⟩ : BufTy).Contents (Elt F)),
    binary main_v3 main_v36 main_v37 (addi : (⟨S3300000, .i32⟩ : BufTy).Contents (Elt F) → (⟨S3300000, .i32⟩ : BufTy).Contents (Elt F) → (⟨S3300000, .i32⟩ : BufTy).Contents (Elt F)),
    ternary main_v35 main_v37 main_v3 main_v38 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v38 main_v39 (broadcastInDim S3300000x1 ![0] bcast_S3300000_S3300000x1_0 : (⟨S3300000, .i32⟩ : BufTy).Contents (Elt F) → (⟨S3300000x1, .i32⟩ : BufTy).Contents (Elt F)),
    binary main_v32 main_v39 main_v40 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v33 main_v41 (broadcastInDim S3300000x16 ![0, 1] bcast_S3300000x1_S3300000x16_0_1 : (⟨S3300000x1, .f32⟩ : BufTy).Contents (Elt F) → (⟨S3300000x16, .f32⟩ : BufTy).Contents (Elt F)),
    binary main_v41 main_v40 main_v42 (mulf : (⟨S3300000x16, .f32⟩ : BufTy).Contents (Elt F) → (⟨S3300000x16, .f32⟩ : BufTy).Contents (Elt F) → (⟨S3300000x16, .f32⟩ : BufTy).Contents (Elt F)),
    nullary main_cst_9 (constant S_ .f32 0x00000000#32),
    unary main_cst_9 main_v43 (broadcastInDim S100000x16 ![] bcast_S_S100000x16 : (⟨S_, .f32⟩ : BufTy).Contents (Elt F) → (⟨S100000x16, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v48) (TRef.of (T := ⟨S100000x16, .f32⟩) main_call1_v0) (TRef.of (T := ⟨S100000x16, .f32⟩) main_v49) maximumf ]

/-- Operations 67 to 86: the second dense layer, its propagation along the weighted edges and the bias (`main_v66`). -/
def refOpsLogits : List (HloOp τ sig (Elt F)) :=
  [ binary main_v49 main_arg4 main_v50 ((fun l r => Host.dotGeneral dot_S100000x16_S16x8_S100000x8_1_0_0_1_n_n none l r) : (⟨S100000x16, .f32⟩ : BufTy).Contents (Elt F) → (⟨S16x8, .f32⟩ : BufTy).Contents (Elt F) → (⟨S100000x8, .f32⟩ : BufTy).Contents (Elt F)),
    unary main_v31 main_v51 (broadcastInDim S3300000x1 ![0] bcast_S3300000_S3300000x1_0 : (⟨S3300000, .f32⟩ : BufTy).Contents (Elt F) → (⟨S3300000x1, .f32⟩ : BufTy).Contents (Elt F)),
    nullary main_c_10 (constantI S_ 32 0#32),
    unary main_c_10 main_v52 (broadcastInDim S3300000 ![] bcast_S_S3300000 : (⟨S_, .i32⟩ : BufTy).Contents (Elt F) → (⟨S3300000, .i32⟩ : BufTy).Contents (Elt F)),
    binary main_v3 main_v52 main_v53 (cmpi .slt : (⟨S3300000, .i32⟩ : BufTy).Contents (Elt F) → (⟨S3300000, .i32⟩ : BufTy).Contents (Elt F) → (⟨S3300000, .i1⟩ : BufTy).Contents (Elt F)),
    nullary main_c_11 (constantI S_ 32 100000#32),
    unary main_c_11 main_v54 (broadcastInDim S3300000 ![] bcast_S_S3300000 : (⟨S_, .i32⟩ : BufTy).Contents (Elt F) → (⟨S3300000, .i32⟩ : BufTy).Contents (Elt F)),
    binary main_v3 main_v54 main_v55 (addi : (⟨S3300000, .i32⟩ : BufTy).Contents (Elt F) → (⟨S3300000, .i32⟩ : BufTy).Contents (Elt F) → (⟨S3300000, .i32⟩ : BufTy).Contents (Elt F)),
    ternary main_v53 main_v55 main_v3 main_v56 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v56 main_v57 (broadcastInDim S3300000x1 ![0] bcast_S3300000_S3300000x1_0 : (⟨S3300000, .i32⟩ : BufTy).Contents (Elt F) → (⟨S3300000x1, .i32⟩ : BufTy).Contents (Elt F)),
    binary main_v50 main_v57 main_v58 ((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)),
    unary main_v51 main_v59 (broadcastInDim S3300000x8 ![0, 1] bcast_S3300000x1_S3300000x8_0_1 : (⟨S3300000x1, .f32⟩ : BufTy).Contents (Elt F) → (⟨S3300000x8, .f32⟩ : BufTy).Contents (Elt F)),
    binary main_v59 main_v58 main_v60 (mulf : (⟨S3300000x8, .f32⟩ : BufTy).Contents (Elt F) → (⟨S3300000x8, .f32⟩ : BufTy).Contents (Elt F) → (⟨S3300000x8, .f32⟩ : BufTy).Contents (Elt F)),
    nullary main_cst_12 (constant S_ .f32 0x00000000#32),
    unary main_cst_12 main_v61 (broadcastInDim S100000x8 ![] bcast_S_S100000x8 : (⟨S_, .f32⟩ : BufTy).Contents (Elt F) → (⟨S100000x8, .f32⟩ : BufTy).Contents (Elt F)),
    unary main_v6 main_v62 (broadcastInDim S3300000x1 ![0] bcast_S3300000_S3300000x1_0 : (⟨S3300000, .i32⟩ : BufTy).Contents (Elt F) → (⟨S3300000x1, .i32⟩ : BufTy).Contents (Elt F)),
    ternary main_v61 main_v62 main_v60 main_v63 ((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)),
    unary main_arg5 main_v64 (broadcastInDim S1x8 ![1] bcast_S8_S1x8_1 : (⟨S8, .f32⟩ : BufTy).Contents (Elt F) → (⟨S1x8, .f32⟩ : BufTy).Contents (Elt F)),
    unary main_v64 main_v65 (broadcastInDim S100000x8 ![0, 1] bcast_S1x8_S100000x8_0_1 : (⟨S1x8, .f32⟩ : BufTy).Contents (Elt F) → (⟨S100000x8, .f32⟩ : BufTy).Contents (Elt F)),
    binary main_v63 main_v65 main_v66 (addf : (⟨S100000x8, .f32⟩ : BufTy).Contents (Elt F) → (⟨S100000x8, .f32⟩ : BufTy).Contents (Elt F) → (⟨S100000x8, .f32⟩ : BufTy).Contents (Elt F)) ]

/-- Operations 87 to 101: the row-wise log-softmax of the logits (`main_v67`). -/
def refOpsLsm : List (HloOp τ sig (Elt F)) :=
  [ TRef.nullary (TRef.of (T := ⟨S_, .f32⟩) main_call2_cst) (constant S_ .f32 0xFF800000#32),
    TRef.binary (TRef.of (T := ⟨S100000x8, .f32⟩) main_v66) (TRef.of (T := ⟨S_, .f32⟩) main_call2_cst) (TRef.of (T := ⟨S100000, .f32⟩) main_call2_v0) (fun x v => Host.reduce FloatOps.maximumf x v reducesTo_S100000x8_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x8, .f32⟩) main_call2_v4) (broadcastInDim S100000x8 ![0, 1] bcast_S100000x1_S100000x8_0_1),
    TRef.binary (TRef.of (T := ⟨S100000x8, .f32⟩) main_v66) (TRef.of (T := ⟨S100000x8, .f32⟩) main_call2_v4) (TRef.of (T := ⟨S100000x8, .f32⟩) main_call2_v5) subf,
    TRef.unary (TRef.of (T := ⟨S100000x8, .f32⟩) main_call2_v5) (TRef.of (T := ⟨S100000x8, .f32⟩) main_call2_v6) Host.exp,
    TRef.nullary (TRef.of (T := ⟨S_, .f32⟩) main_call2_cst_1) (constant S_ .f32 0x00000000#32),
    TRef.binary (TRef.of (T := ⟨S100000x8, .f32⟩) main_call2_v6) (TRef.of (T := ⟨S_, .f32⟩) main_call2_cst_1) (TRef.of (T := ⟨S100000, .f32⟩) main_call2_v7) (fun x v => Host.reduceAdd x v reducesTo_S100000x8_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x8, .f32⟩) main_call2_v10) (broadcastInDim S100000x8 ![0, 1] bcast_S100000x1_S100000x8_0_1),
    TRef.binary (TRef.of (T := ⟨S100000x8, .f32⟩) main_call2_v5) (TRef.of (T := ⟨S100000x8, .f32⟩) main_call2_v10) (TRef.of (T := ⟨S100000x8, .f32⟩) main_v67) subf ]

/-! ## The four stretches, each read from an arbitrary valuation -/

/-- After the first stretch `main_v3` holds the source index of every edge, self loops appended. -/
theorem ref_norm_src (W : Valuation τ sig (Elt F)) :
    after (refOpsNorm (F := F)) W (Proc.devRef (τ := τ) .tc main_v3) = Cert.Spec.srcOf (W (Proc.devRef (τ := τ) .tc main_arg1)) := by
  unfold refOpsNorm; after_results_simp; rfl

/-- After the first stretch `main_v6` holds the target index of every edge, self loops appended. -/
theorem ref_norm_dst (W : Valuation τ sig (Elt F)) :
    after (refOpsNorm (F := F)) W (Proc.devRef (τ := τ) .tc main_v6) = Cert.Spec.dstOf (W (Proc.devRef (τ := τ) .tc main_arg1)) := by
  unfold refOpsNorm; after_results_simp; rfl

/-- After the first stretch `main_v31` holds the symmetric normalisation `dis[src] * dis[dst]` of every edge. -/
theorem ref_norm_norm (W : Valuation τ sig (Elt F)) :
    after (refOpsNorm (F := F)) W (Proc.devRef (τ := τ) .tc main_v31)
      = Cert.Spec.normOf (Cert.Spec.srcOf (W (Proc.devRef (τ := τ) .tc main_arg1))) (Cert.Spec.dstOf (W (Proc.devRef (τ := τ) .tc main_arg1))) := by
  unfold refOpsNorm; after_results_simp; rfl

/-! The first stretch writes none of the argument buffers the later stretches read. -/

theorem ref_norm_keep_main_arg0 (W : Valuation τ sig (Elt F)) :
    after (refOpsNorm (F := F)) W (Proc.devRef (τ := τ) .tc main_arg0) = W (Proc.devRef (τ := τ) .tc main_arg0) := by
  unfold refOpsNorm; after_results_simp
theorem ref_norm_keep_main_arg2 (W : Valuation τ sig (Elt F)) :
    after (refOpsNorm (F := F)) W (Proc.devRef (τ := τ) .tc main_arg2) = W (Proc.devRef (τ := τ) .tc main_arg2) := by
  unfold refOpsNorm; after_results_simp
theorem ref_norm_keep_main_arg3 (W : Valuation τ sig (Elt F)) :
    after (refOpsNorm (F := F)) W (Proc.devRef (τ := τ) .tc main_arg3) = W (Proc.devRef (τ := τ) .tc main_arg3) := by
  unfold refOpsNorm; after_results_simp
theorem ref_norm_keep_main_arg4 (W : Valuation τ sig (Elt F)) :
    after (refOpsNorm (F := F)) W (Proc.devRef (τ := τ) .tc main_arg4) = W (Proc.devRef (τ := τ) .tc main_arg4) := by
  unfold refOpsNorm; after_results_simp
theorem ref_norm_keep_main_arg5 (W : Valuation τ sig (Elt F)) :
    after (refOpsNorm (F := F)) W (Proc.devRef (τ := τ) .tc main_arg5) = W (Proc.devRef (τ := τ) .tc main_arg5) := by
  unfold refOpsNorm; after_results_simp

/-- After the second stretch `main_v49` holds the hidden layer `max (Â (x · W1) + b1, 0)`, `Â` the propagation along the
    weighted edges the stretch is entered with. -/
theorem ref_hidden_hidden (W : Valuation τ sig (Elt F)) :
    after (refOpsHidden (F := F)) W (Proc.devRef (τ := τ) .tc main_v49)
      = Cert.Spec.biasRelu (Cert.Spec.agg16 (Cert.Spec.lin1 (W (Proc.devRef (τ := τ) .tc main_arg0)) (W (Proc.devRef (τ := τ) .tc main_arg2))) (W (Proc.devRef (τ := τ) .tc main_v31)) (W (Proc.devRef (τ := τ) .tc main_v3)) (W (Proc.devRef (τ := τ) .tc main_v6)))
          (Cert.Spec.row16 (W (Proc.devRef (τ := τ) .tc main_arg3))) := by
  unfold refOpsHidden; after_results_simp; rfl

/-! The second stretch writes neither the edge weights and index vectors of the first nor the arguments the third reads. -/

theorem ref_hidden_keep_main_v31 (W : Valuation τ sig (Elt F)) :
    after (refOpsHidden (F := F)) W (Proc.devRef (τ := τ) .tc main_v31) = W (Proc.devRef (τ := τ) .tc main_v31) := by
  unfold refOpsHidden; after_results_simp
theorem ref_hidden_keep_main_v3 (W : Valuation τ sig (Elt F)) :
    after (refOpsHidden (F := F)) W (Proc.devRef (τ := τ) .tc main_v3) = W (Proc.devRef (τ := τ) .tc main_v3) := by
  unfold refOpsHidden; after_results_simp
theorem ref_hidden_keep_main_v6 (W : Valuation τ sig (Elt F)) :
    after (refOpsHidden (F := F)) W (Proc.devRef (τ := τ) .tc main_v6) = W (Proc.devRef (τ := τ) .tc main_v6) := by
  unfold refOpsHidden; after_results_simp
theorem ref_hidden_keep_main_arg4 (W : Valuation τ sig (Elt F)) :
    after (refOpsHidden (F := F)) W (Proc.devRef (τ := τ) .tc main_arg4) = W (Proc.devRef (τ := τ) .tc main_arg4) := by
  unfold refOpsHidden; after_results_simp
theorem ref_hidden_keep_main_arg5 (W : Valuation τ sig (Elt F)) :
    after (refOpsHidden (F := F)) W (Proc.devRef (τ := τ) .tc main_arg5) = W (Proc.devRef (τ := τ) .tc main_arg5) := by
  unfold refOpsHidden; after_results_simp

/-- After the third stretch `main_v66` holds the logits `Â (h · W2) + b2`. -/
theorem ref_logits_logits (W : Valuation τ sig (Elt F)) :
    after (refOpsLogits (F := F)) W (Proc.devRef (τ := τ) .tc main_v66)
      = Cert.Spec.logits (Cert.Spec.agg8 (Cert.Spec.lin2 (W (Proc.devRef (τ := τ) .tc main_v49)) (W (Proc.devRef (τ := τ) .tc main_arg4))) (W (Proc.devRef (τ := τ) .tc main_v31)) (W (Proc.devRef (τ := τ) .tc main_v3)) (W (Proc.devRef (τ := τ) .tc main_v6)))
          (Cert.Spec.row8 (W (Proc.devRef (τ := τ) .tc main_arg5))) := by
  unfold refOpsLogits; after_results_simp; rfl

/-- Contents moved to a typed reference's buffer and read back are the contents. -/
theorem ref_ofBuf_toBuf {sig : RefSig} {Val : EltTy → Type} {T : BufTy} (x : TRef sig T) (v : T.Contents Val) :
    x.ofBuf (x.toBuf v) = v := by
  obtain ⟨r, h, _, _⟩ := x
  subst h
  rfl

/-- The fourth stretch with the transports at its two ends kept: inside, every value is written and read at one type. -/
theorem ref_lsm_typed (W : Valuation τ sig (Elt F)) :
    after (refOpsLsm (F := F)) W (Proc.devRef (τ := τ) .tc main_v67)
      = (TRef.of (T := ⟨S100000x8, .f32⟩) main_v67).toBuf
          (Cert.Spec.lsmOfShifted (Cert.Spec.shifted ((TRef.of (T := ⟨S100000x8, .f32⟩) main_v66).ofBuf (W (Proc.devRef (τ := τ) .tc main_v66))))) := by
  unfold refOpsLsm; after_results_simp; simp only [ref_ofBuf_toBuf]; rfl

/-- After the fourth stretch `main_v67` holds the row-wise log-softmax of the logits it is entered with. -/
theorem ref_lsm_lsm (W : Valuation τ sig (Elt F)) :
    after (refOpsLsm (F := F)) W (Proc.devRef (τ := τ) .tc main_v67) = Cert.Spec.lsmOfShifted (Cert.Spec.shifted (W (Proc.devRef (τ := τ) .tc main_v66))) :=
  (ref_lsm_typed W).trans rfl

/-! ## The whole line -/

/-- The four stretches composed: after all 101 operations the result buffer holds `G` of the argument buffers. -/
theorem ref_after_stretches (W : Valuation τ sig (Elt F)) :
    after (refOpsNorm ++ (refOpsHidden ++ (refOpsLogits ++ refOpsLsm)) : List (HloOp τ sig (Elt F))) W (Proc.devRef (τ := τ) .tc main_v67)
      = Cert.Spec.G (W (Proc.devRef (τ := τ) .tc main_arg0)) (W (Proc.devRef (τ := τ) .tc main_arg1)) (W (Proc.devRef (τ := τ) .tc main_arg2)) (W (Proc.devRef (τ := τ) .tc main_arg3)) (W (Proc.devRef (τ := τ) .tc main_arg4)) (W (Proc.devRef (τ := τ) .tc main_arg5)) := by
  rw [ref_after_append, ref_after_append, ref_after_append, ref_lsm_lsm, ref_logits_logits, ref_hidden_hidden,
    ref_hidden_keep_main_v31, ref_hidden_keep_main_v3, ref_hidden_keep_main_v6, ref_hidden_keep_main_arg4, ref_hidden_keep_main_arg5,
    ref_norm_norm, ref_norm_src, ref_norm_dst,
    ref_norm_keep_main_arg0, ref_norm_keep_main_arg2, ref_norm_keep_main_arg3, ref_norm_keep_main_arg4, ref_norm_keep_main_arg5]
  unfold Cert.Spec.G Cert.Spec.biasLsm Cert.Spec.hidden
  rfl

/-- The program's operations are the four stretches in order. -/
theorem ref_ops_cut : (Cert.ReferenceIdeal.RunP.ops : List (HloOp τ sig (Elt F))) = refOpsNorm ++ (refOpsHidden ++ (refOpsLogits ++ refOpsLsm)) := rfl

/-- After the program's 101 operations, from any valuation, the result buffer holds `G` of the argument buffers. -/
theorem ref_after_ops (W : Valuation τ sig (Elt F)) :
    after (Cert.ReferenceIdeal.RunP.ops (F := F)) W (Proc.devRef (τ := τ) .tc main_v67) = Cert.Spec.G (W (Proc.devRef (τ := τ) .tc main_arg0)) (W (Proc.devRef (τ := τ) .tc main_arg1)) (W (Proc.devRef (τ := τ) .tc main_arg2)) (W (Proc.devRef (τ := τ) .tc main_arg3)) (W (Proc.devRef (τ := τ) .tc main_arg4)) (W (Proc.devRef (τ := τ) .tc main_arg5)) := by
  rw [ref_ops_cut]; exact ref_after_stretches W

/-! ## The run -/

set_option maxHeartbeats 40400000 in
/-- On every device, from any memory with zero counters: every weakly fair execution of the reference terminates with
    its result buffer at `G` of the arguments' launch contents, the arguments unchanged. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v67)
        = Cert.Spec.G (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5) :=
  (θ_run (Cert.ReferenceIdeal.defs (F := Ideal)) _ _).mono (fun _ h c => ⟨(h c main_v67).trans (ref_after_ops (F := Ideal) (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq Cert.ReferenceIdeal.RunP.scopedRefs_eq Cert.ReferenceIdeal.RunP.scopedSems_eq defs main (fun _ => Cert.ReferenceIdeal.RunP.ops)
      Cert.ReferenceIdeal.RunP.main_eq (fun _ => Cert.ReferenceIdeal.RunP.ops_sub) m ρ)

end Cert.Bridge

end
-- ==== Proof.lean ====
/-
  A two-layer graph convolution (GCN) forward pass on 100000 nodes and 3200000 edges: the kernel program against its
  jnp reference, equal at the ideal values.

  Both programs compute, from node features `x`, an edge list `e`, and two weight / bias pairs,
      log_softmax (Â · relu (Â · (x · W1) + b1) · W2 + b2)
  where `Â` is the normalised adjacency with self loops: row `v` of `Â · h` is the sum over the edges `k` into `v` of
  `deg(src k)^(-1/2) · deg(dst k)^(-1/2) · h[src k]`. The edge bookkeeping and the two propagation steps are the SAME
  host operations in both programs (a scatter-add for the degrees, gathers, a scatter-add per step); the kernel computes
  the four dense steps — `x · W1`, `max (· + b1, 0)`, `· W2`, and the row-wise log-softmax of `· + b2` — in four
  pipelined regions of ten row tiles each, the reference as whole-array host operations.

  The specification `Cert.Spec.G` (Proof/Spec.lean) is that function stage by stage. The kernel program's final result
  buffer holds `G` of its arguments: each region's output array is the corresponding dense stage of the arrays the region
  is entered with (Proof/Region0 … Region3: tile `t` writes rows 10000·t … 10000·t+9999, the tiles cover the array; at
  the ideal values a bf16 cast is the identity, a `tpu.matmul` into a zero accumulator and a host `dot_general` are
  the same finite sum, a lane reduction and a host reduction are the same fold or sum, and the reference's extra
  `maximum (-∞, ·)` is the identity), the host stretches are read as the specification's shared stages
  (Proof/KStretch), and the contents are followed from the launch memory through the nine segments (Proof/KValue,
  over the run of Proof/KNamed). The reference's run reads back as `G` of its arguments (Proof/RefRun). No algebraic
  law beyond these identities is needed, and the precondition is not used: the two sides are the same function of the
  same extended reals.
-/
import proofs.«123840_j84799834293080_1_alg».proof.Defs
import proofs.«123840_j84799834293080_1_alg».proof.Proof.Gen.Kernel
import proofs.«123840_j84799834293080_1_alg».proof.Proof.Gen.Kernel.Frame
import proofs.«123840_j84799834293080_1_alg».proof.Proof.Gen.KernelIdeal
import proofs.«123840_j84799834293080_1_alg».proof.Proof.Gen.KernelIdeal.Frame
import proofs.«123840_j84799834293080_1_alg».proof.Proof.Gen.ReferenceIdeal
import proofs.«123840_j84799834293080_1_alg».proof.Proof.Gen.Pre_finite_inputs
import proofs.«123840_j84799834293080_1_alg».proof.Proof.Spec
import proofs.«123840_j84799834293080_1_alg».proof.Proof.KNamed
import proofs.«123840_j84799834293080_1_alg».proof.Proof.KValue
import proofs.«123840_j84799834293080_1_alg».proof.Proof.Region0
import proofs.«123840_j84799834293080_1_alg».proof.Proof.Region1
import proofs.«123840_j84799834293080_1_alg».proof.Proof.Region2
import proofs.«123840_j84799834293080_1_alg».proof.Proof.Region3
import proofs.«123840_j84799834293080_1_alg».proof.Proof.RefRun

noncomputable section

/-! ## The claims -/

namespace Cert.Proof

open Idealize.ShloMosaic Idealize.SL.Sem

/-- The word-level kernel program runs and leaves its arguments: its generated frame certificate. -/
theorem frame_k : Cert.frame_Kernel := fun m ρ _ => Cert.Kernel.Gen.frame m ρ

/-- The idealized kernel program likewise. -/
theorem frame_ki : Cert.frame_KernelIdeal := fun m ρ _ => Cert.KernelIdeal.Gen.frame m ρ

/-- The reference runs and leaves its arguments: its run, the result dropped. -/
theorem frame_ri : Cert.frame_ReferenceIdeal := fun m ρ _ =>
  (θ_run Cert.ReferenceIdeal.defs _ _).mono (fun _ h c => (h c).2) (Cert.Bridge.ref_run m ρ)

/-- The ideal pass rewrote nothing in this kernel: the idealization is the program's own text read at the ideal values. -/
theorem preserves : Cert.preserves_Kernel_KernelIdeal := trivial

/-- At the ideal values both programs end with the network `G` of their (agreeing) arguments in the result: the kernel
    through its four regions and the host stretches between them, the reference operation by operation. -/
theorem algebraic : Cert.algebraic_KernelIdeal_ReferenceIdeal := by
  intro m ρ m' ρ' _ hagree
  refine ⟨fun c => Cert.Spec.G (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Bridge.kernel_value m ρ c Cert.Bridge.region0 Cert.Bridge.region1 Cert.Bridge.region2 Cert.Bridge.region3), (h c).2⟩)
      (Cert.Bridge.named_run (F := Ideal) m ρ)
  · refine (θ_run Cert.ReferenceIdeal.defs _ _).mono (fun r h c => ⟨(h c).1.trans ?_, (h c).2⟩) (Cert.Bridge.ref_run m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
